-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x224x224 : Shape := ⟨4, ![8, 96, 224, 224]⟩
abbrev S8 : Shape := ⟨1, ![8]⟩
abbrev S8x128 : Shape := ⟨2, ![8, 128]⟩
abbrev S128x64 : Shape := ⟨2, ![128, 64]⟩
abbrev S64 : Shape := ⟨1, ![64]⟩
abbrev S1000000x64 : Shape := ⟨2, ![1000000, 64]⟩
abbrev S_ : Shape := ⟨0, ![]⟩

class Facts : Prop where
  bcast_S_S8x96x224x224 : S_.BroadcastsInDim S8x96x224x224 (![] : Fin 0 → Fin S8x96x224x224.rank)
  reducesTo_S8x96x224x224_S_d0_1_2_3 : S8x96x224x224.ReducesTo [0, 1, 2, 3] S_
  h_S_ : 0 < S_.numel
  bcast_S_S8x128 : S_.BroadcastsInDim S8x128 (![] : Fin 0 → Fin S8x128.rank)
  reducesTo_S8x128_S_d0_1 : S8x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1000000x64 : S_.BroadcastsInDim S1000000x64 (![] : Fin 0 → Fin S1000000x64.rank)
  reducesTo_S1000000x64_S_d0_1 : S1000000x64.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg1 : IVec S8 32) (main_arg5 : FVec F S1000000x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1000000x64 .f32 := Host.absf main_arg5
  let main_cst_6 : FVec F S_ .f32 := constant S_ .f32 0x7F800000#32
  let main_v20 : FVec F S1000000x64 .f32 := broadcastInDim S1000000x64 ![] bcast_S_S1000000x64 main_cst_6
  let main_v21 : IVec S1000000x64 1 := cmpf .olt main_v19 main_v20
  let main_c_7 : IVec S_ 1 := constantI S_ 1 1#1
  let main_v22 : IVec S_ 1 := (fun x v => Host.reduce IntOp.andi x v reducesTo_S1000000x64_S_d0_1 h_S_) main_v21 main_c_7
  let main_v23 : IVec S_ 1 := andi main_v18 main_v22
  let main_c_8 : IVec S_ 32 := constantI S_ 32 0#32
  let main_v24 : IVec S8 32 := broadcastInDim S8 ![] bcast_S_S8 main_c_8
  let main_v25 : IVec S8 1 := cmpi .sge main_arg1 main_v24
  let main_c_9 : IVec S_ 32 := constantI S_ 32 1000000#32
  let main_v26 : IVec S8 32 := broadcastInDim S8 ![] bcast_S_S8 main_c_9
  let main_v27 : IVec S8 1 := cmpi .slt main_arg1 main_v26
  let main_v28 : IVec S8 1 := andi main_v25 main_v27
  let main_c_10 : IVec S_ 1 := constantI S_ 1 1#1
  let main_v29 : IVec S_ 1 := (fun x v => Host.reduce IntOp.andi x v reducesTo_S8_S_d0 h_S_) main_v28 main_c_10
  let main_v30 : IVec S_ 1 := andi main_v23 main_v29
  main_v30

def fn {F : FTy → Type} [FloatOps F] (main_arg0 : FVec F S8x96x224x224 .f32) (main_arg1 : IVec S8 32) (main_arg2 : FVec F S8x128 .f32) (main_arg3 : FVec F S128x64 .f32) (main_arg4 : FVec F S64 .f32) (main_arg5 : FVec F S1000000x64 .f32) : IVec S_ 1 :=
  let main_v0 : FVec F S8x96x224x224 .f32 := Host.absf main_arg0
  let main_cst : FVec F S_ .f32 := constant S_ .f32 0x7F800000#32
  let main_v1 : FVec F S8x96x224x224 .f32 := broadcastInDim S8x96x224x224 ![] bcast_S_S8x96x224x224 main_cst
  let main_v2 : IVec S8x96x224x224 1 := cmpf .olt main_v0 main_v1
  let main_c : IVec S_ 1 := constantI S_ 1 1#1
  let main_v3 : IVec S_ 1 := (fun x v => Host.reduce IntOp.andi x v reducesTo_S8x96x224x224_S_d0_1_2_3 h_S_) main_v2 main_c
  let main_v4 : FVec F S8x128 .f32 := Host.absf main_arg2
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_v13 main_v16
-- ==== Kernel.lean ====
abbrev S8x96x224x224 : Shape := ⟨4, ![8, 96, 224, 224]⟩
abbrev S8 : Shape := ⟨1, ![8]⟩
abbrev S8x128 : Shape := ⟨2, ![8, 128]⟩
abbrev S128x64 : Shape := ⟨2, ![128, 64]⟩
abbrev S64 : Shape := ⟨1, ![64]⟩
abbrev S1000000x64 : Shape := ⟨2, ![1000000, 64]⟩
abbrev S1000000x1x64 : Shape := ⟨3, ![1000000, 1, 64]⟩
abbrev S8x1x128 : Shape := ⟨3, ![8, 1, 128]⟩
abbrev S1x64 : Shape := ⟨2, ![1, 64]⟩
abbrev S8x160x224x224 : Shape := ⟨4, ![8, 160, 224, 224]⟩
abbrev S1x96x32x224 : Shape := ⟨4, ![1, 96, 32, 224]⟩
abbrev S1x1x128 : Shape := ⟨3, ![1, 1, 128]⟩
abbrev S1x1x64 : Shape := ⟨3, ![1, 1, 64]⟩
abbrev S1 : Shape := ⟨1, ![1]⟩
abbrev S1x160x32x224 : Shape := ⟨4, ![1, 160, 32, 224]⟩
abbrev S96x32x224 : Shape := ⟨3, ![96, 32, 224]⟩
abbrev S1x128 : Shape := ⟨2, ![1, 128]⟩
abbrev S64x1x1 : Shape := ⟨3, ![64, 1, 1]⟩
abbrev S64x32x224 : Shape := ⟨3, ![64, 32, 224]⟩
abbrev S1x64x32x224 : Shape := ⟨4, ![1, 64, 32, 224]⟩

abbrev nBuf : Space → Nat
  | .hbm => 9
  | .vmem => 10
  | .smem => 1
  | _ => 0

abbrev bufTy : (tb : Table) → Fin (tcTables nBuf tb) → BufTy
  | .hbm, ⟨0, _⟩ => ⟨S8x96x224x224, .f32⟩
  | .hbm, ⟨1, _⟩ => ⟨S8x128, .f32⟩
  | .hbm, ⟨2, _⟩ => ⟨S128x64, .f32⟩
  | .hbm, ⟨3, _⟩ => ⟨S64, .f32⟩
  | .hbm, ⟨4, _⟩ => ⟨S1000000x64, .f32⟩
  | .hbm, ⟨5, _⟩ => ⟨S1000000x1x64, .f32⟩
  | .hbm, ⟨6, _⟩ => ⟨S8x1x128, .f32⟩
  | .hbm, ⟨7, _⟩ => ⟨S1x64, .f32⟩
  | .hbm, ⟨8, _⟩ => ⟨S8x160x224x224, .f32⟩
  | .local _ .vmem, ⟨0, _⟩ => ⟨S1x96x32x224, .f32⟩
  | .local _ .vmem, ⟨1, _⟩ => ⟨S1x96x32x224, .f32⟩
  | .local _ .vmem, ⟨2, _⟩ => ⟨S1x1x128, .f32⟩
  | .local _ .vmem, ⟨3, _⟩ => ⟨S1x1x128, .f32⟩
  | .local _ .vmem, ⟨4, _⟩ => ⟨S128x64, .f32⟩
  | .local _ .vmem, ⟨5, _⟩ => ⟨S1x64, .f32⟩
  | .local _ .vmem, ⟨6, _⟩ => ⟨S1x1x64, .f32⟩
  | .local _ .vmem, ⟨7, _⟩ => ⟨S1x1x64, .f32⟩
  | .local _ .vmem, ⟨8, _⟩ => ⟨S1x160x32x224, .f32⟩
  | .local _ .vmem, ⟨9, _⟩ => ⟨S1x160x32x224, .f32⟩
  | .local _ .smem, ⟨0, _⟩ => ⟨S8, .i32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 7], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x32x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x160x32x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S1000000x64_S1000000x1x64 : S1000000x64.ShapeCasts S1000000x1x64
  shapeCasts_S8x128_S8x1x128 : S8x128.ShapeCasts S8x1x128
  shapeCasts_S64_S1x64 : S64.ShapeCasts S1x64
  numel1_S1 : S1.numel = 1
  inb_S1x96x32x224_S1x96x32x224_0_0_0_0 : ∀ a, (![0, 0, 0, 0] : Fin 4 → Nat) a + S1x96x32x224.size a ≤ S1x96x32x224.size a
  h_S1x96x32x224 : 0 < S1x96x32x224.numel
  shapeCasts_S1x96x32x224_S96x32x224 : S1x96x32x224.ShapeCasts S96x32x224
  inb_S1x160x32x224_S1x96x32x224_0_0_0_0 : ∀ a, (![0, 0, 0, 0] : Fin 4 → Nat) a + S1x96x32x224.size a ≤ S1x160x32x224.size a
  shapeCasts_S96x32x224_S1x96x32x224 : S96x32x224.ShapeCasts S1x96x32x224
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S64x1x1 : S1x64.ShapeCasts S64x1x1
  shapeCasts_S64x1x1_S64x1x1 : S64x1x1.ShapeCasts S64x1x1
  broadcasts_S64x1x1_S64x32x224 : S64x1x1.Broadcasts S64x32x224
  inb_S1x160x32x224_S1x64x32x224_0_96_0_0 : ∀ a, (![0, 96, 0, 0] : Fin 4 → Nat) a + S1x64x32x224.size a ≤ S1x160x32x224.size a
  h_S1x64x32x224 : 0 < S1x64x32x224.numel
  shapeCasts_S1x64x32x224_S64x32x224 : S1x64x32x224.ShapeCasts S64x32x224
  shapeCasts_S64x32x224_S1x64x32x224 : S64x32x224.ShapeCasts S1x64x32x224
  dot_S1x128_S128x64_S1x64_1_0_0_1_n_n_wf : DotDims.WF S1x128 S128x64 S1x64 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x32x224.size a ≤ S8x96x224x224.size a
  hwx0_0 : ∀ i : grid0.Coords, EltTy.bits .f32 = 32 ∨ (Rect.block (s := S8x96x224x224) S1x96x32x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S8x1x128.size a
  hwx0_1 : ∀ i : grid0.Coords, EltTy.bits .f32 = 32 ∨ (Rect.block (s := S8x1x128) S1x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x160x32x224.size a ≤ S8x160x224x224.size a
  hwx0_5 : ∀ i : grid0.Coords, EltTy.bits .f32 = 32 ∨ (Rect.block (s := S8x160x224x224) S1x160x32x224.size (cc0_transform_5 i) (hinb0_5 i)).WholeWords (EltTy.packing .f32)

variable [Facts₀]

def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

abbrev spec0_0 : Pipeline.WinSpec sig grid0.rank :=
  Pipeline.WinSpec.ofSpec (Memref.whole main_arg0) S1x96x32x224.size reads0_0 false false 2 stage0_0 sem0_0 nbuf0_0 hstage0_0

abbrev spec0_1 : Pipeline.WinSpec sig grid0.rank :=
  Pipeline.WinSpec.ofSpec (Memref.whole main_v1) S1x1x128.size reads0_1 false false 2 stage0_1 sem0_1 nbuf0_1 hstage0_1

abbrev spec0_2 : Pipeline.WinSpec sig grid0.rank :=
  Pipeline.WinSpec.ofSpec (Memref.whole main_arg3) S128x64.size reads0_2 false true 1 stage0_2 sem0_2 nbuf0_2 hstage0_2

abbrev spec0_3 : Pipeline.WinSpec sig grid0.rank :=
  Pipeline.WinSpec.ofSpec (Memref.whole main_v2) S1x64.size reads0_3 false true 1 stage0_3 sem0_3 nbuf0_3 hstage0_3

abbrev spec0_4 : Pipeline.WinSpec sig grid0.rank :=
  Pipeline.WinSpec.ofSpec (Memref.whole main_v0) S1x1x64.size reads0_4 false false 2 stage0_4 sem0_4 nbuf0_4 hstage0_4

abbrev spec0_5 : Pipeline.WinSpec sig grid0.rank :=
  Pipeline.WinSpec.ofSpec (Memref.whole main_v3) S1x160x32x224.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_4 k0_off1_inb numel1_S1 pf i a + 1) * S1x1x64.size a ≤ S1000000x1x64.size a), EltTy.bits .f32 = 32 ∨ (Rect.block (s := S1000000x1x64) S1x1x64.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => hinb0_3 | 4 => fun i a => (hok i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => hwx0_3 | 4 => fun i => (hok i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S8x96x224x224 : Shape := ⟨4, ![8, 96, 224, 224]⟩
abbrev S8 : Shape := ⟨1, ![8]⟩
abbrev S8x128 : Shape := ⟨2, ![8, 128]⟩
abbrev S128x64 : Shape := ⟨2, ![128, 64]⟩
abbrev S64 : Shape := ⟨1, ![64]⟩
abbrev S1000000x64 : Shape := ⟨2, ![1000000, 64]⟩
abbrev S8x64 : Shape := ⟨2, ![8, 64]⟩
abbrev S1x64 : Shape := ⟨2, ![1, 64]⟩
abbrev S_ : Shape := ⟨0, ![]⟩
abbrev S8x1 : Shape := ⟨2, ![8, 1]⟩
abbrev S1 : Shape := ⟨1, ![1]⟩
abbrev S1x1 : Shape := ⟨2, ![1, 1]⟩
abbrev S8x64x1x1 : Shape := ⟨4, ![8, 64, 1, 1]⟩
abbrev S8x64x224x224 : Shape := ⟨4, ![8, 64, 224, 224]⟩
abbrev S8x160x224x224 : Shape := ⟨4, ![8, 160, 224, 224]⟩

abbrev nBuf : Space → Nat
  | .hbm => 40
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S8, .i32⟩
  | .hbm, ⟨2, _⟩ => ⟨S8x128, .f32⟩
  | .hbm, ⟨3, _⟩ => ⟨S128x64, .f32⟩
  | .hbm, ⟨4, _⟩ => ⟨S64, .f32⟩
  | .hbm, ⟨5, _⟩ => ⟨S1000000x64, .f32⟩
  | .hbm, ⟨6, _⟩ => ⟨S8x64, .f32⟩
  | .hbm, ⟨7, _⟩ => ⟨S1x64, .f32⟩
  | .hbm, ⟨8, _⟩ => ⟨S8x64, .f32⟩
  | .hbm, ⟨9, _⟩ => ⟨S8x64, .f32⟩
  | .hbm, ⟨10, _⟩ => ⟨S_, .f32⟩
  | .hbm, ⟨11, _⟩ => ⟨S8x64, .f32⟩
  | .hbm, ⟨12, _⟩ => ⟨S8x64, .f32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S8x1, .i32⟩
  | .hbm, ⟨21, _⟩ => ⟨S1, .i32⟩
  | .hbm, ⟨22, _⟩ => ⟨S_, .i32⟩
  | .hbm, ⟨23, _⟩ => ⟨S8x1, .i32⟩
  | .hbm, ⟨24, _⟩ => ⟨S8x1, .i1⟩
  | .hbm, ⟨25, _⟩ => ⟨S1x1, .i32⟩
  | .hbm, ⟨26, _⟩ => ⟨S8x1, .i32⟩
  | .hbm, ⟨27, _⟩ => ⟨S8x1, .i1⟩
  | .hbm, ⟨28, _⟩ => ⟨S8x1, .i1⟩
  | .hbm, ⟨29, _⟩ => ⟨S_, .i1⟩
  | .hbm, ⟨30, _⟩ => ⟨S8, .i1⟩
  | .hbm, ⟨31, _⟩ => ⟨S8x64, .f32⟩
  | .hbm, ⟨32, _⟩ => ⟨S8x64, .i1⟩
  | .hbm, ⟨33, _⟩ => ⟨S_, .f32⟩
  | .hbm, ⟨34, _⟩ => ⟨S8x64, .f32⟩
  | .hbm, ⟨35, _⟩ => ⟨S8x64, .f32⟩
  | .hbm, ⟨36, _⟩ => ⟨S8x64, .f32⟩
  | .hbm, ⟨37, _⟩ => ⟨S8x64x1x1, .f32⟩
  | .hbm, ⟨38, _⟩ => ⟨S8x64x224x224, .f32⟩
  | .hbm, ⟨39, _⟩ => ⟨S8x160x224x224, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_call1_cst : Ref sig .tc := ⟨.hbm, 33, rfl⟩
abbrev main_call1_v15 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S_S8 : S_.BroadcastsInDim S8 (![] : Fin 0 → Fin S8.rank)
  bcast_S8_S8x1_0 : S8.BroadcastsInDim S8x1 (![0] : Fin 1 → Fin S8x1.rank)
  bcast_S_S8x1 : S_.BroadcastsInDim S8x1 (![] : Fin 0 → Fin S8x1.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  reducesTo_S8x1_S8_d1 : S8x1.ReducesTo [1] S8
  h_S_ : 0 < S_.numel
  bcast_S8_S8x64_0 : S8.BroadcastsInDim S8x64 (![0] : Fin 1 → Fin S8x64.rank)
  shapeCasts_S8x64_S8x64x1x1 : S8x64.ShapeCasts S8x64x1x1
  bcast_S8x64x1x1_S8x64x224x224_0_1_2_3 : S8x64x1x1.BroadcastsInDim S8x64x224x224 (![0, 1, 2, 3] : Fin 4 → Fin S8x64x224x224.rank)
  concatenates_S8x96x224x224_S8x64x224x224_S8x160x224x224_d1 : Shape.Concatenates [S8x96x224x224, S8x64x224x224] S8x160x224x224 1
  dot_S8x128_S128x64_S8x64_1_0_0_1_n_n_wf : DotDims.WF S8x128 S128x64 S8x64 [1] [0] [0] [1] [] []
  gather_S1000000x64_S8x1_S8x64_1_0_n_n_0_1_164_wf : GatherDims.WF S1000000x64 S8x1 S8x64 [1] [0] [] [0] [] 1 ![1, 64]

variable [Facts₀]

def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf
def gather_S1000000x64_S8x1_S8x64_1_0_n_n_0_1_164 : GatherDims S1000000x64 S8x1 S8x64 where
  offsetDims := [1]
  collapsedSliceDims := [0]
  operandBatchingDims := []
  startIndicesBatchingDims := []
  startIndexMap := [0]
  indexVectorDim := 1
  sliceSizes := ![1, 64]
  wf := gather_S1000000x64_S8x1_S8x64_1_0_n_n_0_1_164_wf

class Facts : Prop extends Facts₀ where

variable [Facts]
-- ==== Proof.Spec.lean ====
/-
  What both programs compute, as one function of the six argument arrays.

  The result has 160 channels per sample. Channels 0..95 are the image `x` itself. Channels 96..159 do not depend on
  the pixel: channel 96 + q of sample p is
      max (∑ k, dvec p k · W k q + bias q) 0 + table (ids p) q,
  the rectified affine image of the sample's continuous vector plus the embedding row its id selects. The sum, the two
  additions and the maximum are taken in this order on both sides, so no law of the extended reals beyond reading each
  operation at an index is needed, and finiteness of the inputs is never used. What is used is that every id names a
  row of the table (`InRange`).
-/
import Idealize.ShloMosaic.PureOps.Ideal
import Idealize.ShloMosaic.Lib.ValueIdx

noncomputable section

open scoped BigOperators

namespace Cert.Adapter

open Idealize.ShloMosaic Idealize.ShloMosaic.ValueIdx

/-- The table row a 32-bit id selects: the id read as a signed integer and clamped into the table's rows. For an id
    in range this is the id itself. -/
def row (w : BitVec 32) : Fin 1000000 := ⟨min w.toInt.toNat 999999, by omega⟩

/-- Every id names a row of the table: as a signed integer it lies in [0, 1000000). -/
def InRange (ids : IVec ⟨1, ![8]⟩ 32) : Prop :=
  ∀ p : Fin 8, 0 ≤ (ids (ix1 p)).toInt ∧ (ids (ix1 p)).toInt < 1000000

/-- For an id in range, reading it signed or unsigned gives the same row number. -/
theorem row_val_of_inRange (w : BitVec 32) (h0 : 0 ≤ w.toInt) (h1 : w.toInt < 1000000) : (row w).val = w.toNat := by
  have hw := w.isLt
  have e : w.toInt = (w.toNat : Int) := by
    unfold BitVec.toInt at h0 h1 ⊢
    split
    · rfl
    · rename_i h; exfalso; omega
  show min w.toInt.toNat 999999 = w.toNat
  rw [e] at h1 ⊢
  simp only [Int.toNat_natCast]
  omega

/-- Entry q of sample p's domain vector: the rectified affine image of its continuous vector plus its embedding row. -/
def emb (ids : IVec ⟨1, ![8]⟩ 32) (dv : FVec Ideal ⟨2, ![8, 128]⟩ .f32) (W : FVec Ideal ⟨2, ![128, 64]⟩ .f32)
    (b : FVec Ideal ⟨1, ![64]⟩ .f32) (tab : FVec Ideal ⟨2, ![1000000, 64]⟩ .f32) (p : Fin 8) (q : Fin 64) : EReal :=
  max ((∑ k : Fin 128, dv (ix2 p k) * W (ix2 k q)) + b (ix1 q)) (Ideal.ofBits .f32 0x00000000#32)
    + tab (ix2 (row (ids (ix1 p))) q)

/-- The result at sample p, channel ch, pixel (r, s): the image below channel 96, the domain vector from there on. -/
def Gat (x : FVec Ideal ⟨4, ![8, 96, 224, 224]⟩ .f32) (ids : IVec ⟨1, ![8]⟩ 32) (dv : FVec Ideal ⟨2, ![8, 128]⟩ .f32)
    (W : FVec Ideal ⟨2, ![128, 64]⟩ .f32) (b : FVec Ideal ⟨1, ![64]⟩ .f32) (tab : FVec Ideal ⟨2, ![1000000, 64]⟩ .f32)
    (p : Fin 8) (ch : Fin 160) (r s : Fin 224) : EReal :=
  if h : ch.val < 96 then x (ix4 p ⟨ch.val, h⟩ r s) else emb ids dv W b tab p ⟨ch.val - 96, by omega⟩

/-- The whole result array. -/
def G (x : FVec Ideal ⟨4, ![8, 96, 224, 224]⟩ .f32) (ids : IVec ⟨1, ![8]⟩ 32) (dv : FVec Ideal ⟨2, ![8, 128]⟩ .f32)
    (W : FVec Ideal ⟨2, ![128, 64]⟩ .f32) (b : FVec Ideal ⟨1, ![64]⟩ .f32) (tab : FVec Ideal ⟨2, ![1000000, 64]⟩ .f32) :
    FVec Ideal ⟨4, ![8, 160, 224, 224]⟩ .f32 :=
  fun i => Gat x ids dv W b tab (i 0) (i 1) (i 2) (i 3)

/-- The result array at an index given by its coordinates. -/
theorem G_ix4 (x : FVec Ideal ⟨4, ![8, 96, 224, 224]⟩ .f32) (ids : IVec ⟨1, ![8]⟩ 32) (dv : FVec Ideal ⟨2, ![8, 128]⟩ .f32)
    (W : FVec Ideal ⟨2, ![128, 64]⟩ .f32) (b : FVec Ideal ⟨1, ![64]⟩ .f32) (tab : FVec Ideal ⟨2, ![1000000, 64]⟩ .f32)
    (p : Fin 8) (ch : Fin 160) (r s : Fin 224) :
    G x ids dv W b tab (ix4 p ch r s) = Gat x ids dv W b tab p ch r s := rfl

/-- Below channel 96 the result is the image. -/
theorem Gat_lo (x : FVec Ideal ⟨4, ![8, 96, 224, 224]⟩ .f32) (ids : IVec ⟨1, ![8]⟩ 32) (dv : FVec Ideal ⟨2, ![8, 128]⟩ .f32)
    (W : FVec Ideal ⟨2, ![128, 64]⟩ .f32) (b : FVec Ideal ⟨1, ![64]⟩ .f32) (tab : FVec Ideal ⟨2, ![1000000, 64]⟩ .f32)
    (p : Fin 8) (ch : Fin 160) (r s : Fin 224) (h : ch.val < 96) :
    Gat x ids dv W b tab p ch r s = x (ix4 p ⟨ch.val, h⟩ r s) := dif_pos h

/-- From channel 96 on the result is the sample's domain vector. -/
theorem Gat_hi (x : FVec Ideal ⟨4, ![8, 96, 224, 224]⟩ .f32) (ids : IVec ⟨1, ![8]⟩ 32) (dv : FVec Ideal ⟨2, ![8, 128]⟩ .f32)
    (W : FVec Ideal ⟨2, ![128, 64]⟩ .f32) (b : FVec Ideal ⟨1, ![64]⟩ .f32) (tab : FVec Ideal ⟨2, ![1000000, 64]⟩ .f32)
    (p : Fin 8) (ch : Fin 160) (r s : Fin 224) (q : Fin 64) (h : ch.val = 96 + q.val) :
    Gat x ids dv W b tab p ch r s = emb ids dv W b tab p q := by
  unfold Gat
  rw [dif_neg (by omega)]
  congr 1
  exact Fin.ext (by show ch.val - 96 = q.val; omega)

end Cert.Adapter

end
-- ==== Proof.PreRange.lean ====
/-
  The id range, read out of the precondition.

  The precondition is a conjunction of scalar truth values; its last conjunct is the conjunction over all eight samples
  of (0 ≤ id) and (id < 1000000), both comparisons signed. A conjunction of one-bit words is 1 exactly when both
  operands are 1, and a reduction by "and" over an array that comes out 1 met a 1 at every index; so from the
  whole precondition being 1 each sample's two comparison words are 1, which is 0 ≤ id < 1000000 for the id read as a
  signed integer. Only the last conjunct is looked at: the finiteness conjuncts to its left are never opened.
-/
import proofs.«175867_g60808146976991_cont_9to1_m_427_6_alg».proof.Pre_finite_inputs
import proofs.«175867_g60808146976991_cont_9to1_m_427_6_alg».proof.Proof.Spec
import Idealize.ShloMosaic.Lib.ReduceAll

namespace Cert.Adapter.PreRange

open Idealize.ShloMosaic Idealize.ShloMosaic.ValueIdx

/-- The scalar shape has one index. -/
instance : Subsingleton Cert.Pre_finite_inputs.S_.Idx := ⟨fun a b => funext fun d => d.elim0⟩

/-- Where a pointwise conjunction of one-bit arrays is 1, its right operand is 1. -/
theorem and_right {s : Shape} (x y : IVec s 1) (j : s.Idx) (h : andi x y j = 1#1) : y j = 1#1 :=
  (IntOp.andi_eq_one.1 h).2

/-- Where a pointwise conjunction of one-bit arrays is 1, both operands are 1. -/
theorem and_both {s : Shape} (x y : IVec s 1) (j : s.Idx) (h : andi x y j = 1#1) : x j = 1#1 ∧ y j = 1#1 :=
  IntOp.andi_eq_one.1 h

/-- Where the signed comparison x ≥ y of two arrays is 1, the words there, read signed, satisfy y ≤ x. -/
theorem sge_at {s : Shape} (x y : IVec s 32) (j : s.Idx) (h : cmpi .sge x y j = 1#1) : (y j).toInt ≤ (x j).toInt :=
  IntOp.cmpi_sge.1 h

/-- Where the signed comparison x < y of two arrays is 1, the words there, read signed, satisfy x < y. -/
theorem slt_at {s : Shape} (x y : IVec s 32) (j : s.Idx) (h : cmpi .slt x y j = 1#1) : (x j).toInt < (y j).toInt :=
  IntOp.cmpi_slt.1 h

/-- Under the precondition every id, read signed, lies in [0, 1000000): it names a row of the table. -/
theorem inRange_of_pre {F : FTy → Type} [FloatOps F] [hP : Cert.Pre_finite_inputs.Facts]
    (a0 : FVec F Cert.Pre_finite_inputs.S8x96x224x224 .f32) (a1 : IVec Cert.Pre_finite_inputs.S8 32) (a2 : FVec F Cert.Pre_finite_inputs.S8x128 .f32)
    (a3 : FVec F Cert.Pre_finite_inputs.S128x64 .f32) (a4 : FVec F Cert.Pre_finite_inputs.S64 .f32) (a5 : FVec F Cert.Pre_finite_inputs.S1000000x64 .f32)
    (h : Cert.Pre_finite_inputs.fn (F := F) a0 a1 a2 a3 a4 a5 = fun _ => 1#1) : Cert.Adapter.InRange a1 := by
  -- the precondition at its one index is (finiteness conjuncts) ∧ (all ids in range); keep the right operand only
  have e := congrFun h ix0
  unfold Cert.Pre_finite_inputs.fn Cert.Pre_finite_inputs.fn_part1 at e
  have e2 := and_right _ _ _ e
  clear e h
  beta_reduce at e2
  intro p
  -- the conjunction over the eight samples is 1, so sample p's word (0 ≤ id) ∧ (id < 1000000) is 1
  have e3 := Host.reduce_andi_all _ _ _ _ _ e2 (ix1 p)
  obtain ⟨hge, hlt⟩ := and_both _ _ _ e3
  have h0 := sge_at _ _ _ hge
  have h1 := slt_at _ _ _ hlt
  -- the two bounds are the constants 0 and 1000000 broadcast over the samples; 1000000 < 2^31, so its signed value is itself
  have c0 : (broadcastInDim Pre_finite_inputs.S8 ![] Pre_finite_inputs.Facts.bcast_S_S8 (constantI Pre_finite_inputs.S_ 32 0#32) (ix1 p)).toInt = 0 := rfl
  have c1 : (broadcastInDim Pre_finite_inputs.S8 ![] Pre_finite_inputs.Facts.bcast_S_S8 (constantI Pre_finite_inputs.S_ 32 1000000#32) (ix1 p)).toInt = 1000000 := by
    show (1000000#32).toInt = 1000000
    decide
  rw [c0] at h0
  rw [c1] at h1
  exact ⟨h0, h1⟩

end Cert.Adapter.PreRange
-- ==== Proof.KernelOk.lean ====
/-
  The pipeline's side condition, from the id range.

  The window that carries the embedding row reads the table, laid out as [1000000, 1, 64], in blocks of [1, 1, 64];
  at grid point (i, j) its block index is (ids[i], 0, 0), the word ids[i] read unsigned. The side condition asks
  that this block lie inside the table at every grid point: (ids[i] + 1) · 1 ≤ 1000000 on the first axis, and
  (0 + 1) · 1 ≤ 1 and (0 + 1) · 64 ≤ 64 on the other two. A 32-bit word whose signed value lies in [0, 1000000) has
  its sign bit clear, so its unsigned value is the same number and is below 1000000; that is the first inequality, and
  the other two are numerals. The elements are 32 bits wide, so every transfer is of whole words.
-/
import proofs.«175867_g60808146976991_cont_9to1_m_427_6_alg».proof.Defs
import proofs.«175867_g60808146976991_cont_9to1_m_427_6_alg».proof.Proof.Gen.Kernel.Frame
import proofs.«175867_g60808146976991_cont_9to1_m_427_6_alg».proof.Proof.PreRange

set_option maxRecDepth 16384

noncomputable section

namespace Cert.Kernel.OkOfRange

open Cert.Kernel Cert.Kernel.Gen
open Idealize.ShloMosaic Idealize.ShloMosaic.TcCoe Idealize.SL.Sem

variable {F : FTy → Type} [FloatOps F]

/-- The table of ids the index maps read is the id array the program was launched with: nothing before the kernel
    writes it. -/
theorem tbl_eq (m : (ℓ : Loc nD τ sig) → Buf (Elt F) ℓ) :
    tbl m 0 = m (((0 : Dev nD).tc : Thread nD τ).loc main_arg1) := V_main_arg1 m 0

/-- A word in [0, 1000000) signed is below 1000000 unsigned: its signed and unsigned values agree. -/
theorem toNat_lt (w : BitVec 32) (h0 : 0 ≤ w.toInt) (h1 : w.toInt < 1000000) : w.toNat < 1000000 := by
  have e := Cert.Adapter.row_val_of_inRange w h0 h1
  have := (Cert.Adapter.row w).isLt
  omega

/-- The one-element rectangle at offset k of the eight ids has the one index k. -/
theorem emb_eq (k : Fin 8) (off : Fin 1 → Nat) (hoff : off 0 = k.val) (inb : ∀ a, off a + S1.size a ≤ S8.size a) (h1 : 0 < S1.numel) :
    (Rect.unit (s := S8) off S1.size inb).emb (Shape.Idx.first h1) = ValueIdx.ix1 k := by
  funext a
  apply Fin.ext
  fin_cases a
  show off 0 + 1 * (Shape.Idx.first h1 (0 : Fin 1)).val = k.val
  have : (Shape.Idx.first h1 (0 : Fin 1)).val = 0 := rfl
  rw [this, hoff]; omega

/-- The block index of the embedding-row window at grid point i, for any contents pf of the id table: the id of
    sample i 0 read unsigned, then 0, 0. (The grid coordinate is below 8, so as a 32-bit word it is itself.) -/
theorem transform4_eq (pf : pre0.Contents (Elt F)) (i : grid0.Coords) :
    cc0_transform_4 Facts₀.k0_off1_inb Facts₀.numel1_S1 pf i
      = ![(pf 0 (ValueIdx.ix1 ⟨(i 0).val, (i 0).isLt⟩)).toNat, 0, 0] := by
  have h8 : (i 0).val < 8 := (i 0).isLt
  have hk : (![(Scalar.indexCast (BitVec.ofNat 32 (i 0).val)).toNat] : Fin 1 → Nat) 0 = (i 0).val := by
    show (BitVec.ofNat 32 (i 0).val).toNat = (i 0).val
    rw [BitVec.toNat_ofNat]
    apply Nat.mod_eq_of_lt
    omega
  have e : pf.at 0 (Rect.unit (s := S8) ![(Scalar.indexCast (BitVec.ofNat 32 (i 0).val)).toNat] S1.size (Facts₀.k0_off1_inb i)) Facts₀.numel1_S1
      = pf 0 (ValueIdx.ix1 ⟨(i 0).val, (i 0).isLt⟩) :=
    congrArg (pf 0) (emb_eq ⟨(i 0).val, (i 0).isLt⟩ _ hk _ _)
  unfold cc0_transform_4
  exact congrArg (fun w : BitVec 32 => (![w.toNat, (0#32).toNat, (0#32).toNat] : Fin 3 → Nat)) e

/-- The side condition holds when every id names a row of the table: the block (id, 0, 0) of extents [1, 1, 64] lies
    inside [1000000, 1, 64]. -/
theorem ok_of_inRange (m : (ℓ : Loc nD τ sig) → Buf (Elt F) ℓ)
    (h : Cert.Adapter.InRange (m (((0 : Dev nD).tc : Thread nD τ).loc main_arg1))) : Ok m := by
  intro i
  -- every word of the id table is below 1000000 unsigned, whichever index the map reads it at
  have hl : ∀ x, (tbl m 0 x).toNat < 1000000 := fun x => by
    rw [tbl_eq, ValueIdx.eq_ix1 (n := 8) x]
    exact toNat_lt _ (h _).1 (h _).2
  obtain ⟨w, hw, e⟩ : ∃ w : BitVec 32, w.toNat < 1000000 ∧ cc0_transform_4 Facts₀.k0_off1_inb Facts₀.numel1_S1 (tbl m) i = ![w.toNat, 0, 0] :=
    ⟨_, hl _, rfl⟩
  refine ⟨fun a => ?_, Or.inl rfl⟩
  rw [e]
  fin_cases a <;> simp [S1x1x64, S1000000x1x64] <;> omega

/-- The side condition under the precondition, whose last conjunct puts every id in [0, 1000000). -/
theorem ok_of_pre [hP : Cert.Pre_finite_inputs.Facts] (m : (ℓ : Loc nD τ sig) → Buf (Elt Bits) ℓ) (h : Cert.Pre_Kernel m) : Ok m :=
  ok_of_inRange m (Cert.Adapter.PreRange.inRange_of_pre _ _ _ _ _ _ (h 0))

end Cert.Kernel.OkOfRange

end
-- ==== Proof.KernelIdealOk.lean ====
/-
  The pipeline's side condition, from the id range.

  The window that carries the embedding row reads the table, laid out as [1000000, 1, 64], in blocks of [1, 1, 64];
  at grid point (i, j) its block index is (ids[i], 0, 0), the word ids[i] read unsigned. The side condition asks
  that this block lie inside the table at every grid point: (ids[i] + 1) · 1 ≤ 1000000 on the first axis, and
  (0 + 1) · 1 ≤ 1 and (0 + 1) · 64 ≤ 64 on the other two. A 32-bit word whose signed value lies in [0, 1000000) has
  its sign bit clear, so its unsigned value is the same number and is below 1000000; that is the first inequality, and
  the other two are numerals. The elements are 32 bits wide, so every transfer is of whole words.
-/
import proofs.«175867_g60808146976991_cont_9to1_m_427_6_alg».proof.Defs
import proofs.«175867_g60808146976991_cont_9to1_m_427_6_alg».proof.Proof.Gen.KernelIdeal.Frame
import proofs.«175867_g60808146976991_cont_9to1_m_427_6_alg».proof.Proof.PreRange

set_option maxRecDepth 16384

noncomputable section

namespace Cert.KernelIdeal.OkOfRange

open Cert.KernelIdeal Cert.KernelIdeal.Gen
open Idealize.ShloMosaic Idealize.ShloMosaic.TcCoe Idealize.SL.Sem

variable {F : FTy → Type} [FloatOps F]

/-- The table of ids the index maps read is the id array the program was launched with: nothing before the kernel
    writes it. -/
theorem tbl_eq (m : (ℓ : Loc nD τ sig) → Buf (Elt F) ℓ) :
    tbl m 0 = m (((0 : Dev nD).tc : Thread nD τ).loc main_arg1) := V_main_arg1 m 0

/-- A word in [0, 1000000) signed is below 1000000 unsigned: its signed and unsigned values agree. -/
theorem toNat_lt (w : BitVec 32) (h0 : 0 ≤ w.toInt) (h1 : w.toInt < 1000000) : w.toNat < 1000000 := by
  have e := Cert.Adapter.row_val_of_inRange w h0 h1
  have := (Cert.Adapter.row w).isLt
  omega

/-- The one-element rectangle at offset k of the eight ids has the one index k. -/
theorem emb_eq (k : Fin 8) (off : Fin 1 → Nat) (hoff : off 0 = k.val) (inb : ∀ a, off a + S1.size a ≤ S8.size a) (h1 : 0 < S1.numel) :
    (Rect.unit (s := S8) off S1.size inb).emb (Shape.Idx.first h1) = ValueIdx.ix1 k := by
  funext a
  apply Fin.ext
  fin_cases a
  show off 0 + 1 * (Shape.Idx.first h1 (0 : Fin 1)).val = k.val
  have : (Shape.Idx.first h1 (0 : Fin 1)).val = 0 := rfl
  rw [this, hoff]; omega

/-- The block index of the embedding-row window at grid point i, for any contents pf of the id table: the id of
    sample i 0 read unsigned, then 0, 0. (The grid coordinate is below 8, so as a 32-bit word it is itself.) -/
theorem transform4_eq (pf : pre0.Contents (Elt F)) (i : grid0.Coords) :
    cc0_transform_4 Facts₀.k0_off1_inb Facts₀.numel1_S1 pf i
      = ![(pf 0 (ValueIdx.ix1 ⟨(i 0).val, (i 0).isLt⟩)).toNat, 0, 0] := by
  have h8 : (i 0).val < 8 := (i 0).isLt
  have hk : (![(Scalar.indexCast (BitVec.ofNat 32 (i 0).val)).toNat] : Fin 1 → Nat) 0 = (i 0).val := by
    show (BitVec.ofNat 32 (i 0).val).toNat = (i 0).val
    rw [BitVec.toNat_ofNat]
    apply Nat.mod_eq_of_lt
    omega
  have e : pf.at 0 (Rect.unit (s := S8) ![(Scalar.indexCast (BitVec.ofNat 32 (i 0).val)).toNat] S1.size (Facts₀.k0_off1_inb i)) Facts₀.numel1_S1
      = pf 0 (ValueIdx.ix1 ⟨(i 0).val, (i 0).isLt⟩) :=
    congrArg (pf 0) (emb_eq ⟨(i 0).val, (i 0).isLt⟩ _ hk _ _)
  unfold cc0_transform_4
  exact congrArg (fun w : BitVec 32 => (![w.toNat, (0#32).toNat, (0#32).toNat] : Fin 3 → Nat)) e

/-- The side condition holds when every id names a row of the table: the block (id, 0, 0) of extents [1, 1, 64] lies
    inside [1000000, 1, 64]. -/
theorem ok_of_inRange (m : (ℓ : Loc nD τ sig) → Buf (Elt F) ℓ)
    (h : Cert.Adapter.InRange (m (((0 : Dev nD).tc : Thread nD τ).loc main_arg1))) : Ok m := by
  intro i
  -- every word of the id table is below 1000000 unsigned, whichever index the map reads it at
  have hl : ∀ x, (tbl m 0 x).toNat < 1000000 := fun x => by
    rw [tbl_eq, ValueIdx.eq_ix1 (n := 8) x]
    exact toNat_lt _ (h _).1 (h _).2
  obtain ⟨w, hw, e⟩ : ∃ w : BitVec 32, w.toNat < 1000000 ∧ cc0_transform_4 Facts₀.k0_off1_inb Facts₀.numel1_S1 (tbl m) i = ![w.toNat, 0, 0] :=
    ⟨_, hl _, rfl⟩
  refine ⟨fun a => ?_, Or.inl rfl⟩
  rw [e]
  fin_cases a <;> simp [S1x1x64, S1000000x1x64] <;> omega

/-- The side condition under the precondition, whose last conjunct puts every id in [0, 1000000). -/
theorem ok_of_pre [hP : Cert.Pre_finite_inputs.Facts] (m : (ℓ : Loc nD τ sig) → Buf (Elt Ideal) ℓ) (h : Cert.Pre_KernelIdeal m) : Ok m :=
  ok_of_inRange m (Cert.Adapter.PreRange.inRange_of_pre _ _ _ _ _ _ (h 0))

end Cert.KernelIdeal.OkOfRange

end
-- ==== Proof.KernelBlock.lean ====
/-
  What the kernel body leaves in its output block, as one function of the block's index.

  At a grid point the body holds five loaded blocks: a [1,96,32,224] slab of the image, the sample's continuous
  vector [1,1,128], the weights [128,64], the bias [1,64] and one table row [1,1,64]. It writes its [1,160,32,224]
  output block in two pieces: channels 0..95 are the image slab unchanged, channels 96..159 are the 64 numbers
      max (vector · weights + bias) 0 + row
  repeated at every pixel of the slab. Both pieces are restrictions of one function of the block index, so the block
  the two stores leave is that function, whatever the buffer held before.
-/
import proofs.«175867_g60808146976991_cont_9to1_m_427_6_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.AdapterValue

open Cert.KernelIdeal Cert.KernelIdeal.Gen

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The 64 numbers the body computes from the sample's vector, the weights, the bias and the table row: the product
    accumulated from zero, plus the bias, rectified, plus the row. -/
def dvec (x1 : Vec F S1x1x128 .f32) (x2 : Vec F S128x64 .f32) (x3 : Vec F S1x64 .f32) (x4 : Vec F S1x1x64 .f32) :
    FVec F S1x64 .f32 :=
  addf (maximumf (addf (matmul dot_S1x128_S128x64_S1x64_1_0_0_1_n_n none (shapeCast S1x128 x1 shapeCasts_S1x1x128_S1x128) x2
        (constant S1x64 .f32 0x00000000#32)) (shapeCast S1x64 x3 shapeCasts_S1x64_S1x64))
      (broadcast S1x64 (Scalar.ofBits .f32 0x00000000#32)))
    (shapeCast S1x64 x4 shapeCasts_S1x1x64_S1x64)

/-- The output block as a function of its index: the image slab below channel 96, entry (channel − 96) of the 64
    numbers from there on, at every pixel. -/
def blockFn (x0 : Vec F S1x96x32x224 .f32) (d : FVec F S1x64 .f32) : S1x160x32x224.Idx → F .f32 := fun y =>
  if h : (y 1).val < 96 then
    x0 (ix4 (⟨0, Nat.one_pos⟩ : Fin 1) (⟨(y 1).val, h⟩ : Fin 96) (⟨(y 2).val, (y 2).isLt⟩ : Fin 32) (⟨(y 3).val, (y 3).isLt⟩ : Fin 224))
  else
    d (ix2 (⟨0, Nat.one_pos⟩ : Fin 1) (⟨(y 1).val - 96, by have h160 : (y 1).val < 160 := (y 1).isLt; omega⟩ : Fin 64))

/-- The first store's payload is the loaded image slab: a cast that drops the leading unit axis and the cast back. -/
theorem pay1_eq (x0 : Vec F S1x96x32x224 .f32) : k0_pay1 x0 = x0 := by
  unfold k0_pay1
  exact shapeCast_shapeCast x0 _ _

/-- The second store's payload at (0, q, r, s) is entry q of the 64 numbers: the [1,64] row is laid along the channel
    axis of a [64,1,1] column, which is repeated over the 32 × 224 pixels. -/
theorem pay2_ix4 (x1 : Vec F S1x1x128 .f32) (x2 : Vec F S128x64 .f32) (x3 : Vec F S1x64 .f32) (x4 : Vec F S1x1x64 .f32)
    (a : Fin 1) (q : Fin 64) (r : Fin 32) (s : Fin 224) :
    k0_pay2 x1 x2 x3 x4 (ix4 a q r s) = dvec x1 x2 x3 x4 (ix2 (⟨0, Nat.one_pos⟩ : Fin 1) q) := by
  have ha : a.val = 0 := by have := a.isLt; omega
  unfold k0_pay2 dvec
  refine (shapeCast_apply _ _ (ix4 a q r s) (ix3 q r s) ?_).trans ?_
  · rw [Shape.rowMajor_val_three, Shape.rowMajor_val_four]
    show (q.val * 32 + r.val) * 224 + s.val = ((a.val * 64 + q.val) * 32 + r.val) * 224 + s.val
    rw [ha]; omega
  refine (broadcastTo_apply _ _ (ix3 q r s) (ix3 q (⟨0, Nat.one_pos⟩ : Fin 1) (⟨0, Nat.one_pos⟩ : Fin 1)) ?_).trans ?_
  · intro b
    match b with
    | ⟨0, _⟩ => rfl
    | ⟨1, _⟩ => rfl
    | ⟨2, _⟩ => rfl
  rw [shapeCast_self]
  refine (shapeCast_apply _ _ (ix3 q (⟨0, Nat.one_pos⟩ : Fin 1) (⟨0, Nat.one_pos⟩ : Fin 1)) (ix2 (⟨0, Nat.one_pos⟩ : Fin 1) q) ?_).trans rfl
  rw [Shape.rowMajor_val_two, Shape.rowMajor_val_three]
  show 0 * 64 + q.val = (q.val * 1 + 0) * 1 + 0
  omega

/-- The same at any index of the piece. -/
theorem pay2_apply (x1 : Vec F S1x1x128 .f32) (x2 : Vec F S128x64 .f32) (x3 : Vec F S1x64 .f32) (x4 : Vec F S1x1x64 .f32)
    (x : S1x64x32x224.Idx) :
    k0_pay2 x1 x2 x3 x4 x = dvec x1 x2 x3 x4 (ix2 (⟨0, Nat.one_pos⟩ : Fin 1) (⟨(x 1).val, (x 1).isLt⟩ : Fin 64)) := by
  obtain ⟨a, q, r, s, rfl⟩ : ∃ (a : Fin 1) (q : Fin 64) (r : Fin 32) (s : Fin 224), x = ix4 a q r s :=
    ⟨x 0, x 1, x 2, x 3, eq_ix4 x⟩
  exact pay2_ix4 x1 x2 x3 x4 a q r s

/-- The image piece is the block function on channels 0..95. -/
theorem piece1_agree (x0 : Vec F S1x96x32x224 .f32) (d : FVec F S1x64 .f32)
    (inb : ∀ a, (![0, 0, 0, 0] : Fin 4 → Nat) a + S1x96x32x224.size a ≤ S1x160x32x224.size a)
    (x : (Rect.unit (s := S1x160x32x224) ![0, 0, 0, 0] S1x96x32x224.size inb).shape.Idx) :
    x0 x = blockFn x0 d ((Rect.unit (s := S1x160x32x224) ![0, 0, 0, 0] S1x96x32x224.size inb).emb x) := by
  have e0 : (x 0).val < 1 := (x 0).isLt
  have l1 : (x 1).val < 96 := (x 1).isLt
  have e1 : (((Rect.unit (s := S1x160x32x224) ![0, 0, 0, 0] S1x96x32x224.size inb).emb x) 1 : Nat) = 0 + 1 * (x 1).val := rfl
  have e2 : (((Rect.unit (s := S1x160x32x224) ![0, 0, 0, 0] S1x96x32x224.size inb).emb x) 2 : Nat) = 0 + 1 * (x 2).val := rfl
  have e3 : (((Rect.unit (s := S1x160x32x224) ![0, 0, 0, 0] S1x96x32x224.size inb).emb x) 3 : Nat) = 0 + 1 * (x 3).val := rfl
  unfold blockFn
  split
  · refine congrArg x0 (funext fun b => Fin.ext ?_)
    match b with
    | ⟨0, _⟩ => show (x 0).val = 0; omega
    | ⟨1, _⟩ => show (x 1).val = _; rw [e1]; omega
    | ⟨2, _⟩ => show (x 2).val = _; rw [e2]; omega
    | ⟨3, _⟩ => show (x 3).val = _; rw [e3]; omega
  · next h => exact absurd (by rw [e1]; omega) h

/-- The vector piece is the block function on channels 96..159. -/
theorem piece2_agree (x0 : Vec F S1x96x32x224 .f32) (x1 : Vec F S1x1x128 .f32) (x2 : Vec F S128x64 .f32) (x3 : Vec F S1x64 .f32)
    (x4 : Vec F S1x1x64 .f32)
    (inb : ∀ a, (![0, 96, 0, 0] : Fin 4 → Nat) a + S1x64x32x224.size a ≤ S1x160x32x224.size a)
    (x : (Rect.unit (s := S1x160x32x224) ![0, 96, 0, 0] S1x64x32x224.size inb).shape.Idx) :
    k0_pay2 x1 x2 x3 x4 x
      = blockFn x0 (dvec x1 x2 x3 x4) ((Rect.unit (s := S1x160x32x224) ![0, 96, 0, 0] S1x64x32x224.size inb).emb x) := by
  have l1 : (x 1).val < 64 := (x 1).isLt
  have e1 : (((Rect.unit (s := S1x160x32x224) ![0, 96, 0, 0] S1x64x32x224.size inb).emb x) 1 : Nat) = 96 + 1 * (x 1).val := rfl
  unfold blockFn
  split
  · next h => exact absurd h (by rw [e1]; omega)
  · refine (pay2_apply x1 x2 x3 x4 x).trans (congrArg (dvec x1 x2 x3 x4) (funext fun b => Fin.ext ?_))
    match b with
    | ⟨0, _⟩ => rfl
    | ⟨1, _⟩ => show (x 1).val = _ - 96; rw [e1]; omega

/-- WHAT THE BODY LEAVES in the output's staging buffer: the block function of the five loaded blocks. -/
theorem out_eq (c : Dev nD) (i : grid0.Coords) (arg3 : Memref sig .tc .vmem S1x96x32x224 .f32) (harg3 : arg3.IsWhole)
    (arg4 : Memref sig .tc .vmem S1x1x128 .f32) (harg4 : arg4.IsWhole) (arg5 : Memref sig .tc .vmem S128x64 .f32) (harg5 : arg5.IsWhole)
    (arg6 : Memref sig .tc .vmem S1x64 .f32) (harg6 : arg6.IsWhole) (arg7 : Memref sig .tc .vmem S1x1x64 .f32) (harg7 : arg7.IsWhole)
    (arg8 : Memref sig .tc .vmem S1x160x32x224 .f32) (harg8 : arg8.IsWhole)
    (x0 : Vec F S1x96x32x224 .f32) (x1 : Vec F S1x1x128 .f32) (x2 : Vec F S128x64 .f32) (x3 : Vec F S1x64 .f32) (x4 : Vec F S1x1x64 .f32)
    (xt0 : TbBuf0 (F := F) c tbM0_0) :
    out0_A_5 c i arg3 harg3 arg4 harg4 arg5 harg5 arg6 harg6 arg7 harg7 arg8 harg8 x0 x1 x2 x3 x4 xt0
      = blockFn x0 (dvec x1 x2 x3 x4) := by
  unfold out0_A_5
  rw [View.read_writes_eq_canon _ _ _ (cover0_A_5 c i arg3 harg3 arg4 harg4 arg5 harg5 arg6 harg6 arg7 harg7 arg8 harg8 x0 x1 x2 x3 x4 xt0)]
  funext y
  refine View.canon_apply_of_pieces (blockFn x0 (dvec x1 x2 x3 x4)) _ ?_ y
    (cover0_A_5 c i arg3 harg3 arg4 harg4 arg5 harg5 arg6 harg6 arg7 harg7 arg8 harg8 x0 x1 x2 x3 x4 xt0 y)
  unfold kernelRun0_A
  dsimp only
  simp only [View.readAt_eq_ld, harg3.read_unread, harg4.read_unread, harg5.read_unread, harg6.read_unread, harg7.read_unread,
    View.ld_unit_zero (S := S1x96x32x224) hz4, View.ld_unit_zero (S := S1x1x128) hz3, View.ld_unit_zero (S := S128x64) hz2,
    View.ld_unit_zero (S := S1x64) hz2, View.ld_unit_zero (S := S1x1x64) hz3]
  refine List.forall_mem_cons.2 ⟨fun x => ?_, List.forall_mem_cons.2 ⟨fun x => ?_, fun _ h => absurd h List.not_mem_nil⟩⟩
  · exact piece2_agree x0 x1 x2 x3 x4 inb_S1x160x32x224_S1x64x32x224_0_96_0_0 x
  · exact (congrFun (pay1_eq x0) x).trans (piece1_agree x0 (dvec x1 x2 x3 x4) inb_S1x160x32x224_S1x96x32x224_0_0_0_0 x)

end Cert.KernelIdeal.AdapterValue

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.KernelEntry.lean ====
/-
  The block the kernel writes at a grid point is the block of the specification.

  Fix a grid point (p, j): sample p, rows 32 j .. 32 j + 31 of the image. If the five loaded blocks are what the
  point's windows cut out of the arrays — the image slab of sample p at those rows, row p of the continuous vectors,
  the whole weights and bias, and the table row the sample's id selects — then the block function of
  `KernelBlock` at a block index is the specification `G` at the array index under it. Channels below 96 copy the
  image; from 96 on, the matrix product accumulated from zero is the plain sum over the 128 contracted entries, and
  the two additions and the maximum are read entry by entry.
-/
import proofs.«175867_g60808146976991_cont_9to1_m_427_6_alg».proof.Proof.KernelBlock
import proofs.«175867_g60808146976991_cont_9to1_m_427_6_alg».proof.Proof.Spec
import proofs.«175867_g60808146976991_cont_9to1_m_427_6_alg».proof.Proof.LibMatmulPlain

noncomputable section

open scoped BigOperators
open Idealize.ShloMosaic Idealize.ShloMosaic.TcCoe Idealize.SL.Sem Idealize.ShloMosaic.ValueIdx

namespace Cert.KernelIdeal.AdapterValue

open Cert.KernelIdeal Cert.KernelIdeal.Gen

/-- The kernel's product has the plain dimension numbers: rows by columns, one contracted axis. -/
theorem dot_plain : dot_S1x128_S128x64_S1x64_1_0_0_1_n_n = DotDims.plain 1 128 64 := rfl

/-- Entry q of the 64 numbers, at the ideal values: the inner product of the vector with column q of the weights,
    plus the bias, rectified, plus the row's entry. -/
theorem dvec_apply (x1 : Vec Ideal S1x1x128 .f32) (x2 : Vec Ideal S128x64 .f32) (x3 : Vec Ideal S1x64 .f32) (x4 : Vec Ideal S1x1x64 .f32)
    (q : Fin 64) :
    dvec x1 x2 x3 x4 (ix2 (⟨0, Nat.one_pos⟩ : Fin 1) q)
      = max ((∑ k : Fin 128, x1 (ix3 (⟨0, Nat.one_pos⟩ : Fin 1) (⟨0, Nat.one_pos⟩ : Fin 1) k) * x2 (ix2 k q))
            + x3 (ix2 (⟨0, Nat.one_pos⟩ : Fin 1) q)) (Ideal.ofBits .f32 0x00000000#32)
          + x4 (ix3 (⟨0, Nat.one_pos⟩ : Fin 1) (⟨0, Nat.one_pos⟩ : Fin 1) q) := by
  unfold dvec
  rw [dot_plain]
  show max (matmul (DotDims.plain 1 128 64) none (shapeCast S1x128 x1 shapeCasts_S1x1x128_S1x128) x2
        (constant (F := Ideal) S1x64 .f32 0x00000000#32) (ix2 (⟨0, Nat.one_pos⟩ : Fin 1) q)
      + shapeCast S1x64 x3 shapeCasts_S1x64_S1x64 (ix2 (⟨0, Nat.one_pos⟩ : Fin 1) q)) (Ideal.ofBits .f32 0x00000000#32)
    + shapeCast S1x64 x4 shapeCasts_S1x1x64_S1x64 (ix2 (⟨0, Nat.one_pos⟩ : Fin 1) q) = _
  rw [Cert.LibMatmulPlain.matmul_plain_zero_apply, shapeCast_self]
  have e1 : ∀ k : Fin 128, shapeCast S1x128 x1 shapeCasts_S1x1x128_S1x128 (ix2 (⟨0, Nat.one_pos⟩ : Fin 1) k)
      = x1 (ix3 (⟨0, Nat.one_pos⟩ : Fin 1) (⟨0, Nat.one_pos⟩ : Fin 1) k) := fun k => by
    refine shapeCast_apply _ _ _ _ ?_
    rw [Shape.rowMajor_val_two, Shape.rowMajor_val_three]
    show (0 * 1 + 0) * 128 + k.val = 0 * 128 + k.val
    omega
  have e4 : shapeCast S1x64 x4 shapeCasts_S1x1x64_S1x64 (ix2 (⟨0, Nat.one_pos⟩ : Fin 1) q)
      = x4 (ix3 (⟨0, Nat.one_pos⟩ : Fin 1) (⟨0, Nat.one_pos⟩ : Fin 1) q) := by
    refine shapeCast_apply _ _ _ _ ?_
    rw [Shape.rowMajor_val_two, Shape.rowMajor_val_three]
    show (0 * 1 + 0) * 64 + q.val = 0 * 64 + q.val
    omega
  rw [e4]
  simp only [e1]

/-- THE BLOCK IS THE SPECIFICATION'S: with the five loaded blocks cut out of the arrays at grid point (p, j), the
    block function at block index y is `G` at the array index i that has y's channel and pixel column, sample p and
    row 32 j + (y's row). -/
theorem block_eq_G (x0 : Vec Ideal S1x96x32x224 .f32) (x1 : Vec Ideal S1x1x128 .f32) (x2 : Vec Ideal S128x64 .f32)
    (x3 : Vec Ideal S1x64 .f32) (x4 : Vec Ideal S1x1x64 .f32)
    (X : FVec Ideal ⟨4, ![8, 96, 224, 224]⟩ .f32) (ids : IVec ⟨1, ![8]⟩ 32) (DV : FVec Ideal ⟨2, ![8, 128]⟩ .f32)
    (W : FVec Ideal ⟨2, ![128, 64]⟩ .f32) (B : FVec Ideal ⟨1, ![64]⟩ .f32) (T : FVec Ideal ⟨2, ![1000000, 64]⟩ .f32)
    (p : Fin 8) (j : Fin 7)
    (h0 : ∀ (ch : Fin 96) (r : Fin 32) (s : Fin 224), x0 (ix4 (⟨0, Nat.one_pos⟩ : Fin 1) ch r s)
      = X (ix4 p ch (⟨32 * j.val + r.val, by have := j.isLt; have := r.isLt; omega⟩ : Fin 224) s))
    (h1 : ∀ k : Fin 128, x1 (ix3 (⟨0, Nat.one_pos⟩ : Fin 1) (⟨0, Nat.one_pos⟩ : Fin 1) k) = DV (ix2 p k))
    (h2 : ∀ (k : Fin 128) (q : Fin 64), x2 (ix2 k q) = W (ix2 k q))
    (h3 : ∀ q : Fin 64, x3 (ix2 (⟨0, Nat.one_pos⟩ : Fin 1) q) = B (ix1 q))
    (h4 : ∀ q : Fin 64, x4 (ix3 (⟨0, Nat.one_pos⟩ : Fin 1) (⟨0, Nat.one_pos⟩ : Fin 1) q)
      = T (ix2 (Cert.Adapter.row (ids (ix1 p))) q))
    (y : S1x160x32x224.Idx) (i : S8x160x224x224.Idx)
    (hi0 : (i 0).val = p.val) (hi1 : (i 1).val = (y 1).val) (hi2 : (i 2).val = 32 * j.val + (y 2).val) (hi3 : (i 3).val = (y 3).val) :
    blockFn x0 (dvec x1 x2 x3 x4) y = Cert.Adapter.G X ids DV W B T i := by
  obtain ⟨i0, i1, i2, i3, rfl⟩ : ∃ (i0 : Fin 8) (i1 : Fin 160) (i2 : Fin 224) (i3 : Fin 224), i = ix4 i0 i1 i2 i3 :=
    ⟨i 0, i 1, i 2, i 3, eq_ix4 i⟩
  have hy1 : (y 1).val < 160 := (y 1).isLt
  have hy2 : (y 2).val < 32 := (y 2).isLt
  have hy3 : (y 3).val < 224 := (y 3).isLt
  have g0 : i0.val = p.val := hi0
  have g1 : i1.val = (y 1).val := hi1
  have g2 : i2.val = 32 * j.val + (y 2).val := hi2
  have g3 : i3.val = (y 3).val := hi3
  obtain rfl : i0 = p := Fin.ext g0
  rw [Cert.Adapter.G_ix4]
  unfold blockFn
  split
  · next h =>
    rw [Cert.Adapter.Gat_lo X ids DV W B T i0 i1 i2 i3 (by omega), h0]
    refine congrArg X (funext fun b => Fin.ext ?_)
    match b with
    | ⟨0, _⟩ => rfl
    | ⟨1, _⟩ => show (y 1).val = i1.val; omega
    | ⟨2, _⟩ => show 32 * j.val + (y 2).val = i2.val; omega
    | ⟨3, _⟩ => show (y 3).val = i3.val; omega
  · next h =>
    rw [Cert.Adapter.Gat_hi X ids DV W B T i0 i1 i2 i3 (⟨(y 1).val - 96, by omega⟩ : Fin 64) (by show i1.val = 96 + ((y 1).val - 96); omega),
      dvec_apply, h3, h4]
    unfold Cert.Adapter.emb
    simp only [h1, h2]

end Cert.KernelIdeal.AdapterValue

end
-- ==== Proof.KernelValue.lean ====
/-
  What the kernel's run leaves in the result array: the specification `G` of the six argument arrays.

  The grid has 8 × 7 points; point (p, j) handles sample p and image rows 32 j .. 32 j + 31. Its windows cut out of
  the arrays: the image slab at block (p, 0, j, 0); row p of the continuous vectors (stored as [8,1,128]); the whole
  weights; the bias (stored as [1,64]); and row ids[p] of the table (stored as [1000000,1,64]) — the one block whose
  position is read from the prefetched ids, which is why each id must name a row of the table. Every block read is
  "block index × block size + coordinate inside the block" on each axis, and the three re-shaped arrays are read
  through their row-major positions. With the blocks identified, the block a point writes back is the block of `G`
  under it; the 56 blocks tile the result array, so the array ends holding `G`.
-/
import proofs.«175867_g60808146976991_cont_9to1_m_427_6_alg».proof.Proof.KernelEntry
import proofs.«175867_g60808146976991_cont_9to1_m_427_6_alg».proof.Proof.KernelIdealOk
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.AdapterValue

open Cert.KernelIdeal Cert.KernelIdeal.Gen

/-! ## The grid: each window's block index at a point, decided over the 56 points -/

theorem idx0 : ∀ t : Fin grid0.N, cc0_transform_0 (grid0.coords t) = ![(grid0.coords t 0).val, 0, (grid0.coords t 1).val, 0] := by decide +kernel
theorem idx1 : ∀ t : Fin grid0.N, cc0_transform_1 (grid0.coords t) = ![(grid0.coords t 0).val, 0, 0] := by decide +kernel
theorem idx2 : ∀ t : Fin grid0.N, cc0_transform_2 (grid0.coords t) = ![0, 0] := by decide +kernel
theorem idx3 : ∀ t : Fin grid0.N, cc0_transform_3 (grid0.coords t) = ![0, 0] := by decide +kernel
theorem idx5 : ∀ t : Fin grid0.N, cc0_transform_5 (grid0.coords t) = ![(grid0.coords t 0).val, 0, (grid0.coords t 1).val, 0] := by decide +kernel
theorem coords_lt : ∀ t : Fin grid0.N, (grid0.coords t 0).val < 8 ∧ (grid0.coords t 1).val < 7 := by decide +kernel

section AnyValues

variable {F : FTy → Type} [FloatOps F]
variable (m : (ℓ : Loc nD τ sig) → Buf (Elt F) ℓ)

/-! ## The three arrays the host re-shapes before the launch -/

/-- The continuous vectors as the region finds them: the [8,128] argument viewed [8,1,128]. -/
theorem V_v1 (c : Dev nD) : (V m c main_v1 : S8x1x128.Idx → F .f32)
    = shapeCast S8x1x128 (m ((c : Thread nD τ).loc main_arg2)) shapeCasts_S8x128_S8x1x128 := by
  dsimp only [V, hostOps0]
  after_results
  rfl

/-- The table as the region finds it: the [1000000,64] argument viewed [1000000,1,64]. -/
theorem V_v0 (c : Dev nD) : (V m c main_v0 : S1000000x1x64.Idx → F .f32)
    = shapeCast S1000000x1x64 (m ((c : Thread nD τ).loc main_arg5)) shapeCasts_S1000000x64_S1000000x1x64 := by
  dsimp only [V, hostOps0]
  after_results
  rfl

/-- The bias as the region finds it: the [64] argument viewed [1,64]. -/
theorem V_v2 (c : Dev nD) : (V m c main_v2 : S1x64.Idx → F .f32)
    = shapeCast S1x64 (m ((c : Thread nD τ).loc main_arg4)) shapeCasts_S64_S1x64 := by
  dsimp only [V, hostOps0]
  after_results
  rfl

/-! ## The five input blocks at a point, read at an index -/

set_option backward.isDefEq.respectTransparency.types false in
/-- The image slab at point (p, j): sample p, rows 32 j + r. -/
theorem iblk0_apply (hO : Ok m) (c : Dev nD) (t : Fin (cfgM m hO).N) (a0 : Fin 1) (ch : Fin 96) (r : Fin 32) (s : Fin 224) :
    iblk m hO c 0 t (ix4 a0 ch r s)
      = m ((c : Thread nD τ).loc main_arg0) (ix4 (⟨(grid0.coords t 0).val, (coords_lt t).1⟩ : Fin 8) ch
          (⟨32 * (grid0.coords t 1).val + r.val, by have := (coords_lt t).2; have := r.isLt; omega⟩ : Fin 224) s) := by
  have ha : a0.val = 0 := by have := a0.isLt; omega
  have hi := idx0 t
  unfold iblk
  rw [View.read_apply]
  show V m c main_arg0 _ = _
  rw [V_main_arg0]
  refine congrArg _ (funext fun b => Fin.ext ?_)
  match b with
  | ⟨0, _⟩ => show cc0_transform_0 (grid0.coords t) 0 * 1 + 1 * a0.val = (grid0.coords t 0).val; rw [hi, ha]; show (grid0.coords t 0).val * 1 + 1 * 0 = _; omega
  | ⟨1, _⟩ => show cc0_transform_0 (grid0.coords t) 1 * 96 + 1 * ch.val = ch.val; rw [hi]; show 0 * 96 + 1 * ch.val = _; omega
  | ⟨2, _⟩ => show cc0_transform_0 (grid0.coords t) 2 * 32 + 1 * r.val = 32 * (grid0.coords t 1).val + r.val; rw [hi]; show (grid0.coords t 1).val * 32 + 1 * r.val = _; omega
  | ⟨3, _⟩ => show cc0_transform_0 (grid0.coords t) 3 * 224 + 1 * s.val = s.val; rw [hi]; show 0 * 224 + 1 * s.val = _; omega

set_option backward.isDefEq.respectTransparency.types false in
/-- The continuous vector at point (p, j): row p. -/
theorem iblk1_apply (hO : Ok m) (c : Dev nD) (t : Fin (cfgM m hO).N) (a0 a1 : Fin 1) (k : Fin 128) :
    iblk m hO c 1 t (ix3 a0 a1 k)
      = m ((c : Thread nD τ).loc main_arg2) (ix2 (⟨(grid0.coords t 0).val, (coords_lt t).1⟩ : Fin 8) k) := by
  have ha0 : a0.val = 0 := by have := a0.isLt; omega
  have ha1 : a1.val = 0 := by have := a1.isLt; omega
  have hi := idx1 t
  unfold iblk
  rw [View.read_apply]
  show V m c main_v1 _ = _
  refine (congrFun (V_v1 m c) _).trans ?_
  refine shapeCast_apply (s := S8x128) (t := S8x1x128) _ _ _ _ ?_
  rw [Shape.rowMajor_val_two, Shape.rowMajor_val_three]
  show (grid0.coords t 0).val * 128 + k.val
    = ((cc0_transform_1 (grid0.coords t) 0 * 1 + 1 * a0.val) * 1 + (cc0_transform_1 (grid0.coords t) 1 * 1 + 1 * a1.val)) * 128
      + (cc0_transform_1 (grid0.coords t) 2 * 128 + 1 * k.val)
  rw [hi, ha0, ha1]
  show (grid0.coords t 0).val * 128 + k.val = (((grid0.coords t 0).val * 1 + 1 * 0) * 1 + (0 * 1 + 1 * 0)) * 128 + (0 * 128 + 1 * k.val)
  omega

set_option backward.isDefEq.respectTransparency.types false in
/-- The weights at any point: the whole array. -/
theorem iblk2_apply (hO : Ok m) (c : Dev nD) (t : Fin (cfgM m hO).N) (k : Fin 128) (q : Fin 64) :
    iblk m hO c 2 t (ix2 k q) = m ((c : Thread nD τ).loc main_arg3) (ix2 k q) := by
  have hi := idx2 t
  unfold iblk
  rw [View.read_apply]
  show V m c main_arg3 _ = _
  rw [V_main_arg3]
  refine congrArg _ (funext fun b => Fin.ext ?_)
  match b with
  | ⟨0, _⟩ => show cc0_transform_2 (grid0.coords t) 0 * 128 + 1 * k.val = k.val; rw [hi]; show 0 * 128 + 1 * k.val = _; omega
  | ⟨1, _⟩ => show cc0_transform_2 (grid0.coords t) 1 * 64 + 1 * q.val = q.val; rw [hi]; show 0 * 64 + 1 * q.val = _; omega

set_option backward.isDefEq.respectTransparency.types false in
/-- The bias at any point: the whole array. -/
theorem iblk3_apply (hO : Ok m) (c : Dev nD) (t : Fin (cfgM m hO).N) (a0 : Fin 1) (q : Fin 64) :
    iblk m hO c 3 t (ix2 a0 q) = m ((c : Thread nD τ).loc main_arg4) (ix1 q) := by
  have ha0 : a0.val = 0 := by have := a0.isLt; omega
  have hi := idx3 t
  unfold iblk
  rw [View.read_apply]
  show V m c main_v2 _ = _
  refine (congrFun (V_v2 m c) _).trans ?_
  refine shapeCast_apply (s := S64) (t := S1x64) _ _ _ _ ?_
  rw [Shape.rowMajor_val_one, Shape.rowMajor_val_two]
  show q.val = (cc0_transform_3 (grid0.coords t) 0 * 1 + 1 * a0.val) * 64 + (cc0_transform_3 (grid0.coords t) 1 * 64 + 1 * q.val)
  rw [hi, ha0]
  show q.val = (0 * 1 + 1 * 0) * 64 + (0 * 64 + 1 * q.val)
  omega

set_option backward.isDefEq.respectTransparency.types false in
/-- The table row at point (p, j): the row whose number is the prefetched word ids[p], read unsigned. The word is a
    variable here; it is named only where the lemma is used. -/
theorem iblk4_apply (hO : Ok m) (c : Dev nD) (t : Fin (cfgM m hO).N) (a0 a1 : Fin 1) (q : Fin 64) (w : BitVec 32)
    (hw : tbl m 0 (ix1 (⟨(grid0.coords t 0).val, (grid0.coords t 0).isLt⟩ : Fin 8)) = w) (hlt : w.toNat < 1000000) :
    iblk m hO c 4 t (ix3 a0 a1 q) = m ((c : Thread nD τ).loc main_arg5) (ix2 (⟨w.toNat, hlt⟩ : Fin 1000000) q) := by
  have ha0 : a0.val = 0 := by have := a0.isLt; omega
  have ha1 : a1.val = 0 := by have := a1.isLt; omega
  have hi : cc0_transform_4 Facts₀.k0_off1_inb Facts₀.numel1_S1 (tbl m) (grid0.coords t) = ![w.toNat, 0, 0] := by
    rw [Cert.KernelIdeal.OkOfRange.transform4_eq, hw]
  unfold iblk
  rw [View.read_apply]
  show V m c main_v0 _ = _
  refine (congrFun (V_v0 m c) _).trans ?_
  refine shapeCast_apply (s := S1000000x64) (t := S1000000x1x64) _ _ _ _ ?_
  rw [Shape.rowMajor_val_two, Shape.rowMajor_val_three]
  show w.toNat * 64 + q.val
    = ((cc0_transform_4 Facts₀.k0_off1_inb Facts₀.numel1_S1 (tbl m) (grid0.coords t) 0 * 1 + 1 * a0.val) * 1
        + (cc0_transform_4 Facts₀.k0_off1_inb Facts₀.numel1_S1 (tbl m) (grid0.coords t) 1 * 1 + 1 * a1.val)) * 64
      + (cc0_transform_4 Facts₀.k0_off1_inb Facts₀.numel1_S1 (tbl m) (grid0.coords t) 2 * 64 + 1 * q.val)
  rw [hi, ha0, ha1]
  show w.toNat * 64 + q.val = ((w.toNat * 1 + 1 * 0) * 1 + (0 * 1 + 1 * 0)) * 64 + (0 * 64 + 1 * q.val)
  omega

end AnyValues

/-! ## At the ideal values: what a point writes back is the specification's block -/

variable (m : (ℓ : Loc nD τ sig) → Buf (Elt Ideal) ℓ)

/-- The specification at the argument arrays core c was launched with. -/
abbrev result (c : Dev nD) : Buf (Elt Ideal) ((c : Thread nD τ).loc main_v3) :=
  Cert.Adapter.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

set_option backward.isDefEq.respectTransparency.types false in
/-- WHAT POINT t WRITES BACK is block t of the specification, when every id names a row of the table. -/
theorem flushed_eq (hO : Ok m) (hr : Cert.Adapter.InRange (m (((0 : Dev nD).tc : Thread nD τ).loc main_arg1))) (c : Dev nD)
    (t : Fin (cfgM m hO).N) :
    (dats m hO 0 c).flushed 5 t = (((cfgM m hO).win 5).blk t).view.read (Elt Ideal) (result m c) := by
  show ((cfgM m hO).win 5).cut (grid0.coords t) ((dats m hO 0 c).after 5 t) = _
  rw [after0_5]
  unfold outsAt0
  rw [out_eq]
  refine funext fun (y : S1x160x32x224.Idx) => ?_
  show blockFn (iblk m hO c 0 t) (dvec (iblk m hO c 1 t) (iblk m hO c 2 t) (iblk m hO c 3 t) (iblk m hO c 4 t)) y
    = result m c ((((cfgM m hO).win 5).blk t).view.emb y)
  obtain rfl : c = 0 := Subsingleton.elim _ _
  have hc := coords_lt t
  have hi := idx5 t
  have hy0 : (y 0).val < 1 := (y 0).isLt
  -- the sample's id: in range, so its row number is the word read unsigned
  have hrp := hr (⟨(grid0.coords t 0).val, hc.1⟩ : Fin 8)
  have hrow := Cert.Adapter.row_val_of_inRange _ hrp.1 hrp.2
  have hlt : (m (((0 : Dev nD).tc : Thread nD τ).loc main_arg1) (ix1 (⟨(grid0.coords t 0).val, hc.1⟩ : Fin 8))).toNat < 1000000 := by
    rw [← hrow]; exact (Cert.Adapter.row _).isLt
  refine block_eq_G (iblk m hO 0 0 t) (iblk m hO 0 1 t) (iblk m hO 0 2 t) (iblk m hO 0 3 t) (iblk m hO 0 4 t)
    (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3))
    (m (((0 : Dev nD).tc : Thread nD τ).loc main_arg4)) (m (((0 : Dev nD).tc : Thread nD τ).loc main_arg5))
    (⟨(grid0.coords t 0).val, hc.1⟩ : Fin 8) (⟨(grid0.coords t 1).val, hc.2⟩ : Fin 7)
    (fun ch r s => iblk0_apply m hO 0 t _ ch r s) (fun k => iblk1_apply m hO 0 t _ _ k) (fun k q => iblk2_apply m hO 0 t k q)
    (fun q => iblk3_apply m hO 0 t _ q) (fun q => ?_) y _ ?_ ?_ ?_ ?_
  · refine (iblk4_apply m hO 0 t _ _ q _ (congrFun (Cert.KernelIdeal.OkOfRange.tbl_eq m) _) hlt).trans ?_
    refine congrArg _ (funext fun b => Fin.ext ?_)
    match b with
    | ⟨0, _⟩ => exact hrow.symm
    | ⟨1, _⟩ => rfl
  · show cc0_transform_5 (grid0.coords t) 0 * 1 + 1 * (y 0).val = (grid0.coords t 0).val
    rw [hi]; show (grid0.coords t 0).val * 1 + 1 * (y 0).val = _; omega
  · show cc0_transform_5 (grid0.coords t) 1 * 160 + 1 * (y 1).val = (y 1).val
    rw [hi]; show 0 * 160 + 1 * (y 1).val = _; omega
  · show cc0_transform_5 (grid0.coords t) 2 * 32 + 1 * (y 2).val = 32 * (grid0.coords t 1).val + (y 2).val
    rw [hi]; show (grid0.coords t 1).val * 32 + 1 * (y 2).val = _; omega
  · show cc0_transform_5 (grid0.coords t) 3 * 224 + 1 * (y 3).val = (y 3).val
    rw [hi]; show 0 * 224 + 1 * (y 3).val = _; omega

end Cert.KernelIdeal.AdapterValue

end
-- ==== Proof.KernelCover.lean ====
/-
  Every index of the result lies in a block some grid point writes back.

  The result, of extents [8, 160, 224, 224], is written back in blocks of extents [1, 160, 32, 224]; grid point (p, r)
  of the grid (8, 7) writes the block at block index (p, 0, r, 0), that is samples p..p, all 160 channels, rows
  32 r .. 32 r + 31 and all 224 columns. An index (i0, i1, i2, i3) lies in that block exactly when p = i0 and
  32 r ≤ i2 < 32 r + 32; so the point (i0, i2 / 32) covers it, and i2 / 32 < 7 because i2 < 224 = 7 · 32. Every
  grid point writes its block back.
-/
import proofs.«175867_g60808146976991_cont_9to1_m_427_6_alg».proof.Proof.Gen.KernelIdeal.Frame
import Idealize.ShloMosaic.Lib.Pipeline.Value

set_option maxRecDepth 16384

noncomputable section

namespace Cert.KernelIdeal.AdapterCover

open Cert.KernelIdeal Cert.KernelIdeal.Gen
open Idealize.ShloMosaic Idealize.ShloMosaic.TcCoe Idealize.SL.Sem

variable {F : FTy → Type} [FloatOps F]

/-- The block index of the result's window at a grid point is its index map at the point's coordinates, whatever the
    id table holds. -/
theorem index5 (a : (pcfg0 (F := F)).Adm) (t : Fin (cfg0 a).N) : ((cfg0 a).win 5).index t = cc0_transform_5 (grid0.coords t) := rfl

/-- The index map of the result's window: grid point (p, r) goes to block index (p, 0, r, 0) (checked over the 56 points). -/
theorem tf5 : ∀ t : Fin grid0.N, cc0_transform_5 (grid0.coords t) = ![(grid0.coords t 0).val, 0, (grid0.coords t 1).val, 0] := by decide +kernel

/-- Every pair of coordinates (q0, q1) below (8, 7) is some grid point's (checked over the 56 pairs). -/
theorem onto : ∀ (q0 : Fin 8) (q1 : Fin 7), ∃ t : Fin grid0.N, (grid0.coords t 0).val = q0.val ∧ (grid0.coords t 1).val = q1.val := by decide +kernel

set_option backward.isDefEq.respectTransparency.types false in
/-- An index of the result is in a grid point's block iff on each axis its coordinate is in the block's range:
    from (block index) · (block extent), for (block extent) places. -/
theorem mem_blk (a : (pcfg0 (F := F)).Adm) (t : Fin (cfg0 a).N) (i : S8x160x224x224.Idx) :
    i ∈ (((cfg0 a).win 5).blk t).view.set ↔ ∀ b : Fin 4, ((cfg0 a).win 5).index t b * S1x160x32x224.size b ≤ (i b).val ∧ (i b).val < ((cfg0 a).win 5).index t b * S1x160x32x224.size b + S1x160x32x224.size b := by
  show i ∈ ((View.whole main_v3).slice (((cfg0 a).win 5).rect t)).set ↔ _
  rw [View.set_slice_whole]
  exact Rect.mem_set_unit

/-- Every index is covered, for any admissible contents of the id table: by the point (i0, i2 / 32). -/
theorem cover_adm (a : (pcfg0 (F := F)).Adm) (i : S8x160x224x224.Idx) :
    ∃ t : Fin (cfg0 a).N, ((cfg0 a).win 5).flush t = true ∧ i ∈ (((cfg0 a).win 5).blk t).view.set := by
  have hi0 : (i 0).val < 8 := (i 0).isLt
  have hi1 : (i 1).val < 160 := (i 1).isLt
  have hi2 : (i 2).val < 224 := (i 2).isLt
  have hi3 : (i 3).val < 224 := (i 3).isLt
  obtain ⟨t, ht0, ht1⟩ := onto ⟨(i 0).val, hi0⟩ ⟨(i 2).val / 32, by omega⟩
  have q : (((cfg0 a).win 5).index t : Fin 4 → Nat) = ![(grid0.coords t 0).val, 0, (grid0.coords t 1).val, 0] := (index5 a t).trans (tf5 t)
  have q0 : ((cfg0 a).win 5).index t (0 : Fin 4) = (i 0).val := (congrFun q (0 : Fin 4)).trans ht0
  have q1 : ((cfg0 a).win 5).index t (1 : Fin 4) = 0 := congrFun q (1 : Fin 4)
  have q2 : ((cfg0 a).win 5).index t (2 : Fin 4) = (i 2).val / 32 := (congrFun q (2 : Fin 4)).trans ht1
  have q3 : ((cfg0 a).win 5).index t (3 : Fin 4) = 0 := congrFun q (3 : Fin 4)
  refine ⟨t, flush0_5 a t, ?_⟩
  rw [mem_blk]
  intro b
  match b with
  | ⟨0, _⟩ => show ((cfg0 a).win 5).index t (0 : Fin 4) * 1 ≤ (i 0).val ∧ (i 0).val < ((cfg0 a).win 5).index t (0 : Fin 4) * 1 + 1; omega
  | ⟨1, _⟩ => show ((cfg0 a).win 5).index t (1 : Fin 4) * 160 ≤ (i 1).val ∧ (i 1).val < ((cfg0 a).win 5).index t (1 : Fin 4) * 160 + 160; omega
  | ⟨2, _⟩ => show ((cfg0 a).win 5).index t (2 : Fin 4) * 32 ≤ (i 2).val ∧ (i 2).val < ((cfg0 a).win 5).index t (2 : Fin 4) * 32 + 32; omega
  | ⟨3, _⟩ => show ((cfg0 a).win 5).index t (3 : Fin 4) * 224 ≤ (i 3).val ∧ (i 3).val < ((cfg0 a).win 5).index t (3 : Fin 4) * 224 + 224; omega

/-- Every index of the result is in the block some grid point writes back, at the id table the program is launched with. -/
theorem cover (m : (ℓ : Loc nD τ sig) → Buf (Elt F) ℓ) (hO : Ok m) (i : S8x160x224x224.Idx) :
    ∃ t : Fin (cfgM m hO).N, ((cfgM m hO).win 5).flush t = true ∧ i ∈ (((cfgM m hO).win 5).blk t).view.set :=
  cover_adm (adm m hO) i

end Cert.KernelIdeal.AdapterCover

end
-- ==== Proof.KernelRun.lean ====
/-
  The kernel's run, read: the result array ends holding the specification, the arguments unchanged.

  Every grid point writes its output block back, each block written back is the specification's block under it, and
  the 56 blocks tile the [8,160,224,224] result; so after the run the array is the specification of the argument
  arrays the program was launched with.
-/
import proofs.«175867_g60808146976991_cont_9to1_m_427_6_alg».proof.Proof.KernelValue
import proofs.«175867_g60808146976991_cont_9to1_m_427_6_alg».proof.Proof.KernelCover

noncomputable section

open Idealize.ShloMosaic Idealize.ShloMosaic.TcCoe Idealize.SL.Sem Idealize.ShloMosaic.ValueIdx
open Idealize.ShloMosaic.Pipeline (Dat)

namespace Cert.KernelIdeal.AdapterValue

open Cert.KernelIdeal Cert.KernelIdeal.Gen

variable (m : (ℓ : Loc nD τ sig) → Buf (Elt Ideal) ℓ) (ρ : Dev nD → PrngReg)

set_option backward.isDefEq.respectTransparency.types false in
/-- The result array after the last write-back is the specification. -/
theorem final (hO : Ok m) (hr : Cert.Adapter.InRange (m (((0 : Dev nD).tc : Thread nD τ).loc main_arg1))) (c : Dev nD) :
    (dats m hO 0 c).arrAt 5 (cfgM m hO).N = result m c :=
  (dats m hO 0 c).arrAt_eq_of_cover 5 (result m c) (fun t _ => flushed_eq m hO hr c t) (Cert.KernelIdeal.AdapterCover.cover m hO)

set_option backward.isDefEq.respectTransparency.types false in
/-- Every weakly fair execution of the program terminates with the result array at the specification and the six
    argument arrays as launched. -/
theorem run (hO : Ok m) (hr : Cert.Adapter.InRange (m (((0 : Dev nD).tc : Thread nD τ).loc main_arg1))) :
    θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 5).trans (final m hO hr c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO)

end Cert.KernelIdeal.AdapterValue

end
-- ==== Proof.RefRun.lean ====
/-
  The reference program's run, read back.

  The reference is a straight line of thirty-five host operations once its three outlined functions (the rectifier,
  the row lookup, and the selection the lookup calls) are substituted at their calls: four of its own (the matrix
  product, the bias broadcast twice, the sum), the rectifier's three, the lookup's twenty-four, and four of its own
  again (the sum, the reshape, the broadcast over the pixels, the concatenation). Every weakly fair execution
  therefore terminates with each buffer at the fold of these operations over the launch contents; no operation writes
  an argument buffer, so the arguments end as they began.
-/
import proofs.«175867_g60808146976991_cont_9to1_m_427_6_alg».proof.ReferenceIdeal
import proofs.«175867_g60808146976991_cont_9to1_m_427_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The thirty-five operations in order, the calls substituted. -/
abbrev ops : List (HloOp τ sig (Elt F)) :=
  [ binary main_arg2 main_arg3 main_v0 ((fun l r => Host.dotGeneral dot_S8x128_S128x64_S8x64_1_0_0_1_n_n none l r) : (⟨S8x128, .f32⟩ : BufTy).Contents (Elt F) → (⟨S128x64, .f32⟩ : BufTy).Contents (Elt F) → (⟨S8x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S8x64 ![0, 1] bcast_S1x64_S8x64_0_1 : (⟨S1x64, .f32⟩ : BufTy).Contents (Elt F) → (⟨S8x64, .f32⟩ : BufTy).Contents (Elt F)),
    binary main_v0 main_v2 main_v3 (addf : (⟨S8x64, .f32⟩ : BufTy).Contents (Elt F) → (⟨S8x64, .f32⟩ : BufTy).Contents (Elt F) → (⟨S8x64, .f32⟩ : BufTy).Contents (Elt F)),
    TRef.nullary main_call0.cst (constant S_ .f32 0x00000000#32),
    TRef.unary main_call0.cst main_call0.v0 (broadcastInDim S8x64 ![] bcast_S_S8x64),
    TRef.binary (.of main_v3) main_call0.v0 main_call0.v1 maximumf,
    TRef.nullary main_call1.c (constantI S_ 32 0#32),
    TRef.unary main_call1.c main_call1.v0 (broadcastInDim S8 ![] bcast_S_S8),
    TRef.binary (.of main_arg1) main_call1.v0 main_call1.v1 (cmpi .slt),
    TRef.nullary main_call1.c_0 (constantI S_ 32 1000000#32),
    TRef.unary main_call1.c_0 main_call1.v2 (broadcastInDim S8 ![] bcast_S_S8),
    TRef.binary (.of main_arg1) main_call1.v2 main_call1.v3 addi,
    TRef.ternary main_call1.v1 main_call1.v3 (.of main_arg1) main_call1.call0.v0 select,
    TRef.unary main_call1.call0.v0 main_call1.v5 (broadcastInDim S8x1 ![0] bcast_S8_S8x1_0),
    TRef.nullary main_call1.c_1 (constantI S1 32 999999#32),
    TRef.nullary main_call1.c_2 (constantI S_ 32 0#32),
    TRef.unary main_call1.c_2 main_call1.v6 (broadcastInDim S8x1 ![] bcast_S_S8x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8x1 ![0, 1] bcast_S1x1_S8x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8x1_S8_d1 h_S_),
    TRef.binary (.of main_arg5) main_call1.v5 main_call1.v13 (fun x i => Host.gather gather_S1000000x64_S8x1_S8x64_1_0_n_n_0_1_164 x i),
    TRef.unary main_call1.v12 main_call1.v14 (broadcastInDim S8x64 ![0] bcast_S8_S8x64_0),
    TRef.nullary main_call1.cst (constant S_ .f32 0x7FC00000#32),
    TRef.unary main_call1.cst main_call1.v15 (broadcastInDim S8x64 ![] bcast_S_S8x64),
    TRef.ternary main_call1.v14 main_call1.v13 main_call1.v15 main_call1.v16 select,
    binary main_v4 main_v5 main_v6 (addf : (⟨S8x64, .f32⟩ : BufTy).Contents (Elt F) → (⟨S8x64, .f32⟩ : BufTy).Contents (Elt F) → (⟨S8x64, .f32⟩ : BufTy).Contents (Elt F)),
    reshape main_v6 main_v7 rfl shapeCasts_S8x64_S8x64x1x1,
    unary main_v7 main_v8 (broadcastInDim S8x64x224x224 ![0, 1, 2, 3] bcast_S8x64x1x1_S8x64x224x224_0_1_2_3 : (⟨S8x64x1x1, .f32⟩ : BufTy).Contents (Elt F) → (⟨S8x64x224x224, .f32⟩ : BufTy).Contents (Elt F)),
    binary main_arg0 main_v8 main_v9 ((fun a b => concatenate S8x160x224x224 1 [⟨S8x96x224x224, a⟩, ⟨S8x64x224x224, b⟩] concatenates_S8x96x224x224_S8x64x224x224_S8x160x224x224_d1) : (⟨S8x96x224x224, .f32⟩ : BufTy).Contents (Elt F) → (⟨S8x64x224x224, .f32⟩ : BufTy).Contents (Elt F) → (⟨S8x160x224x224, .f32⟩ : BufTy).Contents (Elt F)) ]

set_option maxRecDepth 1024 in
/-- The program is that straight line: the three functions' bodies substituted at their calls and the sequencing
    reassociated, both sides are one chain of steps. -/
theorem main_eq (c : Dev nD) : main (F := F) c = seq ops := by
  simp only [main, fn_relu.body, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub ..,
    nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., reshape_bufs_sub .., unary_bufs_sub .., binary_bufs_sub ..⟩

/-- From any memory with zero counters, every weakly fair execution terminates, and every final state has each buffer
    at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather

/-- No operation writes the image. -/
theorem arg0_eq (V : Valuation τ sig (Elt F)) :
    after ops V (main_arg0 : DevRef τ sig) = V (main_arg0 : DevRef τ sig) := by
  simp only [after_cons, after_nil]
  rfl

/-- No operation writes the ids. -/
theorem arg1_eq (V : Valuation τ sig (Elt F)) :
    after ops V (main_arg1 : DevRef τ sig) = V (main_arg1 : DevRef τ sig) := by
  simp only [after_cons, after_nil]
  rfl

/-- No operation writes the continuous vectors. -/
theorem arg2_eq (V : Valuation τ sig (Elt F)) :
    after ops V (main_arg2 : DevRef τ sig) = V (main_arg2 : DevRef τ sig) := by
  simp only [after_cons, after_nil]
  rfl

/-- No operation writes the weight matrix. -/
theorem arg3_eq (V : Valuation τ sig (Elt F)) :
    after ops V (main_arg3 : DevRef τ sig) = V (main_arg3 : DevRef τ sig) := by
  simp only [after_cons, after_nil]
  rfl

/-- No operation writes the bias. -/
theorem arg4_eq (V : Valuation τ sig (Elt F)) :
    after ops V (main_arg4 : DevRef τ sig) = V (main_arg4 : DevRef τ sig) := by
  simp only [after_cons, after_nil]
  rfl

/-- No operation writes the table. -/
theorem arg5_eq (V : Valuation τ sig (Elt F)) :
    after ops V (main_arg5 : DevRef τ sig) = V (main_arg5 : DevRef τ sig) := by
  simp only [after_cons, after_nil]
  rfl

/-- The arguments end as they began. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_arg0).trans (arg0_eq _), (h c main_arg1).trans (arg1_eq _),
      (h c main_arg2).trans (arg2_eq _), (h c main_arg3).trans (arg3_eq _), (h c main_arg4).trans (arg4_eq _),
      (h c main_arg5).trans (arg5_eq _)⟩)
    (run_main m ρ)

end Cert.ReferenceIdeal.RefRun

end
-- ==== Proof.RefValue.lean ====
/-
  The reference program's result is the specification's array.

  The reference computes, per sample p and entry q, the inner product of the sample's continuous vector with column q
  of the weights, adds the bias, takes the maximum with zero, and adds entry q of the table row the sample's id
  selects; it then lays that vector over every pixel and appends it to the image along the channels.

  The row lookup is written defensively: a negative id is first wrapped around by the table's length, the start
  index is clamped into the table's rows, and a sample whose start index falls outside the table is given a
  not-a-number row instead of the gathered one. For an id that as a signed integer lies in [0, 1000000) none of this
  acts: it is not negative, so it is not wrapped; it passes both bound tests, so the mask, a conjunction over an axis of
  extent one started from "true", is "true" and the gathered row is kept; and the clamp is the identity on it. What is
  left is the table row the id names, which is what the specification reads.

  Every operation is read at an index: an addition, maximum or select acts entry by entry; a broadcast reads its
  operand at the coordinates it keeps; the reshape to two trailing unit axes keeps the row-major position; the
  concatenation reads its first piece below channel 96 and its second piece, 96 channels back, from there on.
-/
import proofs.«175867_g60808146976991_cont_9to1_m_427_6_alg».proof.Proof.RefRun
import proofs.«175867_g60808146976991_cont_9to1_m_427_6_alg».proof.Proof.Spec
import Idealize.ShloMosaic.Lib.Pipeline.Value
import Idealize.ShloMosaic.Lib.StackMember
import Idealize.ShloMosaic.Lib.IdealHost
import Idealize.ShloMosaic.Lib.KernelVsHost

noncomputable section

open scoped BigOperators

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

/-- The affine image of the continuous vectors: the matrix product plus the bias broadcast down the samples. -/
def affine (dv : FVec Ideal S8x128 .f32) (W : FVec Ideal S128x64 .f32) (b : FVec Ideal S64 .f32) : FVec Ideal S8x64 .f32 :=
  addf (Host.dotGeneral (F := Ideal) dot_S8x128_S128x64_S8x64_1_0_0_1_n_n none dv W)
    (broadcastInDim S8x64 ![0, 1] bcast_S1x64_S8x64_0_1 (broadcastInDim S1x64 ![1] bcast_S64_S1x64_1 b))

/-- The rectified affine image. -/
def rectified (dv : FVec Ideal S8x128 .f32) (W : FVec Ideal S128x64 .f32) (b : FVec Ideal S64 .f32) : FVec Ideal S8x64 .f32 :=
  maximumf (affine dv W b) (broadcastInDim S8x64 ![] bcast_S_S8x64 (constant (F := Ideal) S_ .f32 0x00000000#32))

/-- The ids with the negative ones wrapped once around the table's length. -/
def wrapped (ids : IVec S8 32) : IVec S8 32 :=
  select (cmpi .slt ids (broadcastInDim S8 ![] bcast_S_S8 (constantI S_ 32 0#32)))
    (addi ids (broadcastInDim S8 ![] bcast_S_S8 (constantI S_ 32 1000000#32))) ids

/-- The wrapped ids as a column of start indices. -/
def startIdx (ids : IVec S8 32) : IVec S8x1 32 := broadcastInDim S8x1 ![0] bcast_S8_S8x1_0 (wrapped ids)

/-- Per sample, whether its start index lies inside the table. -/
def inside (ids : IVec S8 32) : IVec S8 1 :=
  Host.reduce IntOp.andi
    (andi (cmpi .sge (startIdx ids) (broadcastInDim S8x1 ![] bcast_S_S8x1 (constantI S_ 32 0#32)))
      (cmpi .sle (startIdx ids)
        (broadcastInDim S8x1 ![0, 1] bcast_S1x1_S8x1_0_1 (broadcastInDim S1x1 ![1] bcast_S1_S1x1_1 (constantI S1 32 999999#32)))))
    (constantI S_ 1 1#1) reducesTo_S8x1_S8_d1 h_S_

/-- The looked-up rows: the gathered row where the start index is inside the table, the not-a-number splat elsewhere. -/
def taken (ids : IVec S8 32) (tab : FVec Ideal S1000000x64 .f32) : FVec Ideal S8x64 .f32 :=
  select (broadcastInDim S8x64 ![0] bcast_S8_S8x64_0 (inside ids))
    (Host.gather gather_S1000000x64_S8x1_S8x64_1_0_n_n_0_1_164 tab (startIdx ids))
    (broadcastInDim S8x64 ![] bcast_S_S8x64 (constant (F := Ideal) S_ .f32 0x7FC00000#32))

/-- The domain vectors: rectified affine image plus looked-up row. -/
def domainVec (ids : IVec S8 32) (dv : FVec Ideal S8x128 .f32) (W : FVec Ideal S128x64 .f32) (b : FVec Ideal S64 .f32)
    (tab : FVec Ideal S1000000x64 .f32) : FVec Ideal S8x64 .f32 :=
  addf (rectified dv W b) (taken ids tab)

/-- The operations' composed term: the image with the domain vectors, broadcast over the pixels, appended along the
    channels. -/
def refOut (x : FVec Ideal S8x96x224x224 .f32) (ids : IVec S8 32) (dv : FVec Ideal S8x128 .f32) (W : FVec Ideal S128x64 .f32)
    (b : FVec Ideal S64 .f32) (tab : FVec Ideal S1000000x64 .f32) : FVec Ideal S8x160x224x224 .f32 :=
  concatenate S8x160x224x224 1
    [⟨S8x96x224x224, x⟩,
     ⟨S8x64x224x224, broadcastInDim S8x64x224x224 ![0, 1, 2, 3] bcast_S8x64x1x1_S8x64x224x224_0_1_2_3
        (shapeCast S8x64x1x1 (domainVec ids dv W b tab) shapeCasts_S8x64_S8x64x1x1)⟩]
    concatenates_S8x96x224x224_S8x64x224x224_S8x160x224x224_d1

attribute [local irreducible] Host.reduce Host.gather in
set_option maxRecDepth 8192 in
/-- The fold at the result buffer is that term of the argument contents. -/
theorem out_eq (V : Valuation τ sig (Elt Ideal)) :
    after (ops (F := Ideal)) V (main_v9 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-! ## Words: the signed comparisons of an id in range -/

/-- An id that is not negative is not below zero. -/
theorem cmpi_slt_zero (w : BitVec 32) (h0 : 0 ≤ w.toInt) : IntOp.cmpi .slt w 0#32 = 0#1 := by
  have e : (0#32 : BitVec 32).toInt = 0 := by decide
  have hb : w.slt 0#32 = false := by
    unfold BitVec.slt; rw [e]; exact decide_eq_false (by omega)
  show BitVec.ofBool (w.slt 0#32) = 0#1
  rw [hb]; rfl

/-- An id that is not negative is at least zero. -/
theorem cmpi_sge_zero (w : BitVec 32) (h0 : 0 ≤ w.toInt) : IntOp.cmpi .sge w 0#32 = 1#1 := by
  have e : (0#32 : BitVec 32).toInt = 0 := by decide
  have hb : (0#32 : BitVec 32).sle w = true := by
    unfold BitVec.sle; rw [e]; exact decide_eq_true h0
  show BitVec.ofBool ((0#32 : BitVec 32).sle w) = 1#1
  rw [hb]; rfl

/-- An id below the table's length is at most the last row's number. -/
theorem cmpi_sle_last (w : BitVec 32) (h1 : w.toInt < 1000000) : IntOp.cmpi .sle w 999999#32 = 1#1 := by
  have e : (999999#32 : BitVec 32).toInt = 999999 := by decide
  have hb : w.sle 999999#32 = true := by
    unfold BitVec.sle; rw [e]; exact decide_eq_true (by omega)
  show BitVec.ofBool (w.sle 999999#32) = 1#1
  rw [hb]; rfl

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have e : IntOp.andi (1#1) (f a) = 1#1 := by rw [ha]; decide
    rw [List.foldl_cons, e]
    exact foldl_andi_one f l fun n hn => h n (List.mem_cons_of_mem _ hn)

/-- A reduction by `and` from 1 of an array of 1s is 1 at every result index. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x _ fun n _ => hx n

/-! ## The layout operations read at an index -/

section Reads
variable {α : Type}

/-- A vector of 8 copied along a new unit axis, read at (p, 0). -/
theorem bc_8_8x1 (h : S8.BroadcastsInDim S8x1 ![0]) (x : S8.Idx → α) (p : Fin 8) (z : Fin 1) :
    broadcastInDim S8x1 ![0] h x (ix2 p z) = x (ix1 p) :=
  broadcastInDim_apply ![0] h x (ix2 p z) (ix1 p) (fun a => match a with | ⟨0, _⟩ => rfl)

/-- A vector of 8 copied across 64 columns, read at (p, q). -/
theorem bc_8_8x64 (h : S8.BroadcastsInDim S8x64 ![0]) (x : S8.Idx → α) (p : Fin 8) (q : Fin 64) :
    broadcastInDim S8x64 ![0] h x (ix2 p q) = x (ix1 p) :=
  broadcastInDim_apply ![0] h x (ix2 p q) (ix1 p) (fun a => match a with | ⟨0, _⟩ => rfl)

/-- A vector of 64 as one row, read at (0, q). -/
theorem bc_64_1x64 (h : S64.BroadcastsInDim S1x64 ![1]) (x : S64.Idx → α) (z : Fin 1) (q : Fin 64) :
    broadcastInDim S1x64 ![1] h x (ix2 z q) = x (ix1 q) :=
  broadcastInDim_apply ![1] h x (ix2 z q) (ix1 q) (fun a => match a with | ⟨0, _⟩ => rfl)

/-- One row copied down 8 rows, read at (p, q). -/
theorem bc_1x64_8x64 (h : S1x64.BroadcastsInDim S8x64 ![0, 1]) (x : S1x64.Idx → α) (p : Fin 8) (q : Fin 64) :
    broadcastInDim S8x64 ![0, 1] h x (ix2 p q) = x (ix2 (0 : Fin 1) q) :=
  broadcastInDim_apply ![0, 1] h x (ix2 p q) (ix2 (0 : Fin 1) q) (fun a => match a with | ⟨0, _⟩ => rfl | ⟨1, _⟩ => rfl)

/-- An [8, 64, 1, 1] array copied over the 224 × 224 pixels, read at (p, q, r, s). -/
theorem bc_pixels (h : S8x64x1x1.BroadcastsInDim S8x64x224x224 ![0, 1, 2, 3]) (x : S8x64x1x1.Idx → α)
    (p : Fin 8) (q : Fin 64) (r s : Fin 224) :
    broadcastInDim S8x64x224x224 ![0, 1, 2, 3] h x (ix4 p q r s) = x (ix4 p q (0 : Fin 1) (0 : Fin 1)) :=
  broadcastInDim_apply ![0, 1, 2, 3] h x (ix4 p q r s) (ix4 p q (0 : Fin 1) (0 : Fin 1))
    (fun a => match a with | ⟨0, _⟩ => rfl | ⟨1, _⟩ => rfl | ⟨2, _⟩ => rfl | ⟨3, _⟩ => rfl)

/-- An [8, 64] array given two trailing unit axes, read at (p, q, 0, 0). -/
theorem cast_units (h : S8x64.ShapeCasts S8x64x1x1) (x : S8x64.Idx → α) (p : Fin 8) (q : Fin 64) :
    shapeCast S8x64x1x1 x h (ix4 p q (0 : Fin 1) (0 : Fin 1)) = x (ix2 p q) := by
  refine shapeCast_apply x h _ (ix2 p q) ?_
  rw [Shape.rowMajor_val_two, Shape.rowMajor_val_four]
  show p.val * 64 + q.val = ((p.val * 64 + q.val) * 1 + 0) * 1 + 0
  omega

/-- The concatenation along the channels, read below channel 96: the first piece. -/
theorem cat_lo (x : S8x96x224x224.Idx → α) (y : S8x64x224x224.Idx → α)
    (h : Shape.Concatenates [S8x96x224x224, S8x64x224x224] S8x160x224x224 1)
    (p : Fin 8) (ch : Fin 160) (r s : Fin 224) (hc : ch.val < 96) :
    concatenate S8x160x224x224 1 [⟨S8x96x224x224, x⟩, ⟨S8x64x224x224, y⟩] h (ix4 p ch r s) = x (ix4 p ⟨ch.val, hc⟩ r s) :=
  concatenate_pair_apply_left 1 x y h (ix4 p ch r s) rfl (ix4 p ⟨ch.val, hc⟩ r s)
    (fun b => match b with | ⟨0, _⟩ => rfl | ⟨1, _⟩ => rfl | ⟨2, _⟩ => rfl | ⟨3, _⟩ => rfl)

/-- The concatenation along the channels, read from channel 96 on: the second piece, 96 channels back. -/
theorem cat_hi (x : S8x96x224x224.Idx → α) (y : S8x64x224x224.Idx → α)
    (h : Shape.Concatenates [S8x96x224x224, S8x64x224x224] S8x160x224x224 1)
    (p : Fin 8) (ch : Fin 160) (r s : Fin 224) (hc : ¬ ch.val < 96) :
    concatenate S8x160x224x224 1 [⟨S8x96x224x224, x⟩, ⟨S8x64x224x224, y⟩] h (ix4 p ch r s)
      = y (ix4 p ⟨ch.val - 96, by have := ch.isLt; omega⟩ r s) := by
  refine concatenate_pair_apply_right 1 x y h (ix4 p ch r s) rfl rfl (ix4 p ⟨ch.val - 96, by have := ch.isLt; omega⟩ r s) ?_ ?_
  · intro b hb
    match b with
    | ⟨0, _⟩ => rfl
    | ⟨1, _⟩ => exact absurd rfl hb
    | ⟨2, _⟩ => rfl
    | ⟨3, _⟩ => rfl
  · show ch.val - 96 + 96 = ch.val
    omega

/-- The row lookup read at (p, q): the table at the row the start index of sample p selects, column q. The start
    index is read signed and clamped into the table's rows; the row axis is collapsed and the column axis is the
    window's one offset axis. -/
theorem gather_row (tab : S1000000x64.Idx → α) (idx : IVec S8x1 32) (p : Fin 8) (q : Fin 64) :
    Host.gather gather_S1000000x64_S8x1_S8x64_1_0_n_n_0_1_164 tab idx (ix2 p q)
      = tab (ix2 (Cert.Adapter.row (idx (ix2 p (0 : Fin 1)))) q) := by
  unfold Host.gather
  refine congrArg tab (funext fun a => Fin.ext ?_)
  match a with
  | ⟨0, _⟩ =>
    show gather_S1000000x64_S8x1_S8x64_1_0_n_n_0_1_164.start (ix2 p q) idx 0
        + gather_S1000000x64_S8x1_S8x64_1_0_n_n_0_1_164.batchCoord (ix2 p q) 0
        + gather_S1000000x64_S8x1_S8x64_1_0_n_n_0_1_164.offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x64_S8x1_S8x64_1_0_n_n_0_1_164.startIndexMap from List.mem_singleton.mpr rfl)]
    have hsi : gather_S1000000x64_S8x1_S8x64_1_0_n_n_0_1_164.siIdx (ix2 p q)
        ⟨List.idxOf (0 : Fin 2) gather_S1000000x64_S8x1_S8x64_1_0_n_n_0_1_164.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show gather_S1000000x64_S8x1_S8x64_1_0_n_n_0_1_164.start (ix2 p q) idx 1
        + gather_S1000000x64_S8x1_S8x64_1_0_n_n_0_1_164.batchCoord (ix2 p q) 1
        + gather_S1000000x64_S8x1_S8x64_1_0_n_n_0_1_164.offCoord (ix2 p q) 1 = q.val
    rw [GatherDims.batchCoord_eq_zero _ _ _ List.not_mem_nil]
    have hs : gather_S1000000x64_S8x1_S8x64_1_0_n_n_0_1_164.start (ix2 p q) idx 1 = 0 := by
      unfold GatherDims.start
      rw [dif_neg (by decide)]
    have ho : gather_S1000000x64_S8x1_S8x64_1_0_n_n_0_1_164.offCoord (ix2 p q) 1 = q.val := by
      unfold GatherDims.offCoord
      rw [dif_pos (by decide)]
      rfl
    rw [hs, ho]
    omega

end Reads

/-! ## The composed term is the specification's array -/

/-- The start index of a sample whose id is not negative is the id itself: it is not wrapped. -/
theorem startIdx_apply (ids : IVec S8 32) (p : Fin 8) (z : Fin 1) (h0 : 0 ≤ (ids (ix1 p)).toInt) :
    startIdx ids (ix2 p z) = ids (ix1 p) := by
  unfold startIdx
  rw [bc_8_8x1]
  show Scalar.select (IntOp.cmpi .slt (ids (ix1 p)) 0#32) (IntOp.addi (ids (ix1 p)) 1000000#32) (ids (ix1 p)) = ids (ix1 p)
  rw [cmpi_slt_zero _ h0, select_zero]

/-- With every id in range, every sample's start index is inside the table. -/
theorem inside_apply (ids : IVec S8 32) (hr : Cert.Adapter.InRange ids) (p : Fin 8) : inside ids (ix1 p) = 1#1 := by
  unfold inside
  refine reduce_andi_one _ _ _ _ _ ?_ rfl
  intro i
  obtain ⟨a, z, rfl⟩ : ∃ (a : Fin 8) (z : Fin 1), i = ix2 a z := ⟨i 0, i 1, eq_ix2 i⟩
  show IntOp.andi (IntOp.cmpi .sge (startIdx ids (ix2 a z)) 0#32) (IntOp.cmpi .sle (startIdx ids (ix2 a z)) 999999#32) = 1#1
  rw [startIdx_apply ids a z (hr a).1, cmpi_sge_zero _ (hr a).1, cmpi_sle_last _ (hr a).2]
  decide

/-- With every id in range, the looked-up row of sample p is the table's row its id names. -/
theorem taken_apply (ids : IVec S8 32) (tab : FVec Ideal S1000000x64 .f32) (hr : Cert.Adapter.InRange ids) (p : Fin 8) (q : Fin 64) :
    taken ids tab (ix2 p q) = tab (ix2 (Cert.Adapter.row (ids (ix1 p))) q) := by
  unfold taken
  rw [select_apply, bc_8_8x64, inside_apply ids hr p, select_one, gather_row, startIdx_apply ids p 0 (hr p).1]

/-- The affine image at (p, q): the inner product of row p with column q, plus entry q of the bias. -/
theorem affine_apply (dv : FVec Ideal S8x128 .f32) (W : FVec Ideal S128x64 .f32) (b : FVec Ideal S64 .f32) (p : Fin 8) (q : Fin 64) :
    affine dv W b (ix2 p q) = (∑ k : Fin 128, dv (ix2 p k) * W (ix2 k q)) + b (ix1 q) := by
  have hd : Host.dotGeneral (F := Ideal) dot_S8x128_S128x64_S8x64_1_0_0_1_n_n none dv W (ix2 p q)
      = ∑ k : Fin 128, dv (ix2 p k) * W (ix2 k q) := StackMember.dotGeneral_plain_apply none dv W p q
  unfold affine
  rw [addf_apply, bc_1x64_8x64, bc_64_1x64, hd]

/-- The rectified affine image at (p, q). -/
theorem rectified_apply (dv : FVec Ideal S8x128 .f32) (W : FVec Ideal S128x64 .f32) (b : FVec Ideal S64 .f32) (p : Fin 8) (q : Fin 64) :
    rectified dv W b (ix2 p q)
      = max ((∑ k : Fin 128, dv (ix2 p k) * W (ix2 k q)) + b (ix1 q)) (Ideal.ofBits .f32 0x00000000#32) := by
  unfold rectified
  rw [maximumf_apply, affine_apply, broadcastInDim_scalar_apply, constant_apply]

/-- With every id in range, the domain vectors are the specification's. -/
theorem domainVec_apply (ids : IVec S8 32) (dv : FVec Ideal S8x128 .f32) (W : FVec Ideal S128x64 .f32) (b : FVec Ideal S64 .f32)
    (tab : FVec Ideal S1000000x64 .f32) (hr : Cert.Adapter.InRange ids) (p : Fin 8) (q : Fin 64) :
    domainVec ids dv W b tab (ix2 p q) = Cert.Adapter.emb ids dv W b tab p q := by
  unfold domainVec Cert.Adapter.emb
  rw [addf_apply, rectified_apply, taken_apply ids tab hr]

/-- With every id in range, the operations' composed term is the specification's array: below channel 96 the
    concatenation reads the image; from there on it reads the domain vector, the same at every pixel. -/
theorem refOut_eq (x : FVec Ideal S8x96x224x224 .f32) (ids : IVec S8 32) (dv : FVec Ideal S8x128 .f32) (W : FVec Ideal S128x64 .f32)
    (b : FVec Ideal S64 .f32) (tab : FVec Ideal S1000000x64 .f32) (hr : Cert.Adapter.InRange ids) :
    refOut x ids dv W b tab = Cert.Adapter.G x ids dv W b tab := by
  funext i
  obtain ⟨p, ch, r, s, rfl⟩ : ∃ (p : Fin 8) (ch : Fin 160) (r s : Fin 224), i = ix4 p ch r s :=
    ⟨i 0, i 1, i 2, i 3, eq_ix4 i⟩
  rw [Cert.Adapter.G_ix4]
  unfold refOut
  by_cases hc : ch.val < 96
  · rw [cat_lo _ _ _ p ch r s hc, Cert.Adapter.Gat_lo x ids dv W b tab p ch r s hc]
  · rw [cat_hi _ _ _ p ch r s hc, bc_pixels, cast_units, domainVec_apply ids dv W b tab hr,
      Cert.Adapter.Gat_hi x ids dv W b tab p ch r s ⟨ch.val - 96, by have := ch.isLt; omega⟩
        (by show ch.val = 96 + (ch.val - 96); omega)]

/-- From any memory with zero counters whose ids are in range, every weakly fair execution of the reference
    terminates with the result buffer at the specification's array of the arguments, and the arguments unchanged. -/
theorem run (m : (ℓ : Loc nD τ sig) → Buf (Elt Ideal) ℓ) (ρ : Dev nD → PrngReg)
    (hr : ∀ c : Dev nD, Cert.Adapter.InRange (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v9)
        = Cert.Adapter.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c =>
      ⟨(h c main_v9).trans ((out_eq _).trans (refOut_eq _ _ _ _ _ _ (hr c))),
        (h c main_arg0).trans (arg0_eq _), (h c main_arg1).trans (arg1_eq _), (h c main_arg2).trans (arg2_eq _),
        (h c main_arg3).trans (arg3_eq _), (h c main_arg4).trans (arg4_eq _), (h c main_arg5).trans (arg5_eq _)⟩)
    (run_main m ρ)

end Cert.ReferenceIdeal.RefValue

end
-- ==== Proof.lean ====
/-
  The five claims about the concat-adapter kernel and its reference.

  Both programs compute, for sample p, channel ch and pixel (r, s) of an [8,160,224,224] result: the image x for
  ch < 96, and for ch = 96 + q the number  max (∑ k, dvec p k · W k q + bias q) 0 + table (ids p) q  at every pixel.
  The kernel fetches the table row through an index read from the prefetched ids, so its launch is well defined
  only when each id names a row of the table; the precondition says so (every float input finite, and
  0 ≤ ids < 1000000), and the reference's own lookup takes the same row for such an id (its bounds mask is all true,
  no wrap-around, no clamping).

  * The kernel's two frames are the generated ones, under the side condition that the table block lies inside
    the table, which the id range in the precondition gives.
  * The reference's frame is its run with the result dropped.
  * The idealization rewrote nothing.
  * At the ideal values both runs end with the result array at one function of the argument arrays (`Spec`): the
    kernel's by reading each grid point's block and tiling, the reference's by reading its operations index by index.
    The additions and the maximum come in the same order on both sides and the kernel's product accumulated from
    zero is the reference's product, so finiteness is never used.
-/
import proofs.«175867_g60808146976991_cont_9to1_m_427_6_alg».proof.Defs
import proofs.«175867_g60808146976991_cont_9to1_m_427_6_alg».proof.Proof.Gen.Kernel
import proofs.«175867_g60808146976991_cont_9to1_m_427_6_alg».proof.Proof.Gen.Kernel.Frame
import proofs.«175867_g60808146976991_cont_9to1_m_427_6_alg».proof.Proof.Gen.KernelIdeal
import proofs.«175867_g60808146976991_cont_9to1_m_427_6_alg».proof.Proof.Gen.KernelIdeal.Frame
import proofs.«175867_g60808146976991_cont_9to1_m_427_6_alg».proof.Proof.Gen.ReferenceIdeal
import proofs.«175867_g60808146976991_cont_9to1_m_427_6_alg».proof.Proof.Gen.Pre_finite_inputs
import proofs.«175867_g60808146976991_cont_9to1_m_427_6_alg».proof.Proof.PreRange
import proofs.«175867_g60808146976991_cont_9to1_m_427_6_alg».proof.Proof.KernelOk
import proofs.«175867_g60808146976991_cont_9to1_m_427_6_alg».proof.Proof.KernelIdealOk
import proofs.«175867_g60808146976991_cont_9to1_m_427_6_alg».proof.Proof.KernelRun
import proofs.«175867_g60808146976991_cont_9to1_m_427_6_alg».proof.Proof.RefRun
import proofs.«175867_g60808146976991_cont_9to1_m_427_6_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame, its side condition from the
    id range the precondition states. -/
theorem frame_k : Cert.frame_Kernel (hKernel := Cert.Kernel.Gen.facts) (hPre_finite_inputs := Cert.Pre_finite_inputs.Gen.facts) :=
  fun m ρ h => Cert.Kernel.Gen.frame m ρ (Cert.Kernel.OkOfRange.ok_of_pre m h)

/-- The same for the idealized kernel. -/
theorem frame_ki : Cert.frame_KernelIdeal (hKernelIdeal := Cert.KernelIdeal.Gen.facts) (hPre_finite_inputs := Cert.Pre_finite_inputs.Gen.facts) :=
  fun m ρ h => Cert.KernelIdeal.Gen.frame m ρ (Cert.KernelIdeal.OkOfRange.ok_of_pre m h)

/-- The reference is a straight line of host operations: it runs, and writes none of its arguments. -/
theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame m ρ

/-- The ideal pass rewrote no operation of the kernel. -/
theorem preserves : Cert.preserves_Kernel_KernelIdeal := trivial

/-- At the ideal values, from memories agreeing on the arguments, both programs end with the result array at the
    specification of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : Cert.Adapter.InRange (m (((0 : Dev Cert.KernelIdeal.nD).tc : Thread Cert.KernelIdeal.nD Cert.KernelIdeal.τ).loc Cert.KernelIdeal.main_arg1)) :=
    Cert.Adapter.PreRange.inRange_of_pre _ _ _ _ _ _ (hpre 0)
  have hO := Cert.KernelIdeal.OkOfRange.ok_of_inRange m hr
  refine ⟨fun c => Cert.KernelIdeal.AdapterValue.result m c, Cert.KernelIdeal.AdapterValue.run m ρ hO hr, ?_⟩
  have hr' : ∀ c : Dev Cert.ReferenceIdeal.nD, Cert.Adapter.InRange
      (m' ((c.tc : Thread Cert.ReferenceIdeal.nD Cert.ReferenceIdeal.τ).loc Cert.ReferenceIdeal.main_arg1)) := fun c => by
    obtain rfl : c = 0 := Subsingleton.elim _ _
    rw [(hagree 0).2.1]
    exact hr
  refine (θ_run Cert.ReferenceIdeal.defs _ _).mono (fun _ h c => ⟨(h c).1.trans ?_, (h c).2⟩)
    (Cert.ReferenceIdeal.RefValue.run m' ρ' hr')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
